-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64 : Shape := ⟨2, ![512, 64]⟩
abbrev S64x1536 : Shape := ⟨2, ![64, 1536]⟩
abbrev S1536 : Shape := ⟨1, ![1536]⟩
abbrev S64x448 : Shape := ⟨2, ![64, 448]⟩
abbrev S448 : Shape := ⟨1, ![448]⟩
abbrev S_ : Shape := ⟨0, ![]⟩

class Facts : Prop where
  bcast_S_S512x64 : S_.BroadcastsInDim S512x64 (![] : Fin 0 → Fin S512x64.rank)
  reducesTo_S512x64_S_d0_1 : S512x64.ReducesTo [0, 1] S_
  h_S_ : 0 < S_.numel
  bcast_S_S64x1536 : S_.BroadcastsInDim S64x1536 (![] : Fin 0 → Fin S64x1536.rank)
  reducesTo_S64x1536_S_d0_1 : S64x1536.ReducesTo [0, 1] S_
  bcast_S_S1536 : S_.BroadcastsInDim S1536 (![] : Fin 0 → Fin S1536.rank)
  reducesTo_S1536_S_d0 : S1536.ReducesTo [0] S_
  bcast_S_S64x448 : S_.BroadcastsInDim S64x448 (![] : Fin 0 → Fin S64x448.rank)
  reducesTo_S64x448_S_d0_1 : S64x448.ReducesTo [0, 1] S_
  bcast_S_S448 : S_.BroadcastsInDim S448 (![] : Fin 0 → Fin S448.rank)
  reducesTo_S448_S_d0 : S448.ReducesTo [0] S_

variable [Facts]

def fn_part1 {F : FTy → Type} [FloatOps F] (main_arg4 : FVec F S448 .f32) (main_v13 : IVec S_ 1) (main_v16 : IVec S64x448 1) : IVec S_ 1 :=
  let main_c_5 : IVec S_ 1 := constantI S_ 1 1#1
  let main_v17 : IVec S_ 1 := (fun x v => Host.reduce IntOp.andi x v reducesTo_S64x448_S_d0_1 h_S_) main_v16 main_c_5
  let main_v18 : IVec S_ 1 := andi main_v13 main_v17
  let main_v19 : FVec F S448 .f32 := Host.absf main_arg4
  let main_cst_6 : FVec F S_ .f32 := constant S_ .f32 0x7F800000#32
  let main_v20 : FVec F S448 .f32 := broadcastInDim S448 ![] bcast_S_S448 main_cst_6
  let main_v21 : IVec S448 1 := cmpf .olt main_v19 main_v20
  let main_c_7 : IVec S_ 1 := constantI S_ 1 1#1
  let main_v22 : IVec S_ 1 := (fun x v => Host.reduce IntOp.andi x v reducesTo_S448_S_d0 h_S_) main_v21 main_c_7
  let main_v23 : IVec S_ 1 := andi main_v18 main_v22
  main_v23

def fn {F : FTy → Type} [FloatOps F] (main_arg0 : FVec F S512x64 .f32) (main_arg1 : FVec F S64x1536 .f32) (main_arg2 : FVec F S1536 .f32) (main_arg3 : FVec F S64x448 .f32) (main_arg4 : FVec F S448 .f32) : IVec S_ 1 :=
  let main_v0 : FVec F S512x64 .f32 := Host.absf main_arg0
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  let main_v4 : FVec F S64x1536 .f32 := Host.absf main_arg1
  let main_cst_0 : FVec F S_ .f32 := constant S_ .f32 0x7F800000#32
  let main_v5 : FVec F S64x1536 .f32 := broadcastInDim S64x1536 ![] bcast_S_S64x1536 main_cst_0
  let main_v6 : IVec S64x1536 1 := cmpf .olt main_v4 main_v5
  let main_c_1 : IVec S_ 1 := constantI S_ 1 1#1
  let main_v7 : IVec S_ 1 := (fun x v => Host.reduce IntOp.andi x v reducesTo_S64x1536_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S64x448 .f32 := Host.absf main_arg3
  let main_cst_4 : FVec F S_ .f32 := constant S_ .f32 0x7F800000#32
  let main_v15 : FVec F S64x448 .f32 := broadcastInDim S64x448 ![] bcast_S_S64x448 main_cst_4
  let main_v16 : IVec S64x448 1 := cmpf .olt main_v14 main_v15
  fn_part1 (F := F) main_arg4 main_v13 main_v16
-- ==== Kernel.lean ====
abbrev S512x64 : Shape := ⟨2, ![512, 64]⟩
abbrev S64x1536 : Shape := ⟨2, ![64, 1536]⟩
abbrev S1536 : Shape := ⟨1, ![1536]⟩
abbrev S64x448 : Shape := ⟨2, ![64, 448]⟩
abbrev S448 : Shape := ⟨1, ![448]⟩
abbrev S1x1536 : Shape := ⟨2, ![1, 1536]⟩
abbrev S1x448 : Shape := ⟨2, ![1, 448]⟩
abbrev S512x64x1024 : Shape := ⟨3, ![512, 64, 1024]⟩
abbrev S16x64 : Shape := ⟨2, ![16, 64]⟩
abbrev S16x64x1024 : Shape := ⟨3, ![16, 64, 1024]⟩
abbrev S16x1536 : Shape := ⟨2, ![16, 1536]⟩
abbrev S16x448 : Shape := ⟨2, ![16, 448]⟩
abbrev S16x64x24 : Shape := ⟨3, ![16, 64, 24]⟩
abbrev S16x64x7 : Shape := ⟨3, ![16, 64, 7]⟩
abbrev S16x64x1 : Shape := ⟨3, ![16, 64, 1]⟩
abbrev S16x64x168 : Shape := ⟨3, ![16, 64, 168]⟩
abbrev S16x64x16 : Shape := ⟨3, ![16, 64, 16]⟩
abbrev S512x1024x64 : Shape := ⟨3, ![512, 1024, 64]⟩

abbrev nBuf : Space → Nat
  | .hbm => 9
  | .vmem => 8
  | .smem => 0
  | _ => 0

abbrev bufTy : (tb : Table) → Fin (tcTables nBuf tb) → BufTy
  | .hbm, ⟨0, _⟩ => ⟨S512x64, .f32⟩
  | .hbm, ⟨1, _⟩ => ⟨S64x1536, .f32⟩
  | .hbm, ⟨2, _⟩ => ⟨S1536, .f32⟩
  | .hbm, ⟨3, _⟩ => ⟨S64x448, .f32⟩
  | .hbm, ⟨4, _⟩ => ⟨S448, .f32⟩
  | .hbm, ⟨5, _⟩ => ⟨S1x1536, .f32⟩
  | .hbm, ⟨6, _⟩ => ⟨S1x448, .f32⟩
  | .hbm, ⟨7, _⟩ => ⟨S512x64x1024, .f32⟩
  | .hbm, ⟨8, _⟩ => ⟨S512x1024x64, .f32⟩
  | .local _ .vmem, ⟨0, _⟩ => ⟨S16x64, .f32⟩
  | .local _ .vmem, ⟨1, _⟩ => ⟨S16x64, .f32⟩
  | .local _ .vmem, ⟨2, _⟩ => ⟨S64x1536, .f32⟩
  | .local _ .vmem, ⟨3, _⟩ => ⟨S1x1536, .f32⟩
  | .local _ .vmem, ⟨4, _⟩ => ⟨S64x448, .f32⟩
  | .local _ .vmem, ⟨5, _⟩ => ⟨S1x448, .f32⟩
  | .local _ .vmem, ⟨6, _⟩ => ⟨S16x64x1024, .f32⟩
  | .local _ .vmem, ⟨7, _⟩ => ⟨S16x64x1024, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1536_S1x1536 : S1536.ShapeCasts S1x1536
  shapeCasts_S448_S1x448 : S448.ShapeCasts S1x448
  inb_S16x64_S16x64_0_0 : ∀ a, (![0, 0] : Fin 2 → Nat) a + S16x64.size a ≤ S16x64.size a
  h_S16x64 : 0 < S16x64.numel
  inb_S64x1536_S64x1536_0_0 : ∀ a, (![0, 0] : Fin 2 → Nat) a + S64x1536.size a ≤ S64x1536.size a
  h_S64x1536 : 0 < S64x1536.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S16x1536 : S1x1536.Broadcasts S16x1536
  inb_S64x448_S64x448_0_0 : ∀ a, (![0, 0] : Fin 2 → Nat) a + S64x448.size a ≤ S64x448.size a
  h_S64x448 : 0 < S64x448.numel
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S16x448 : S1x448.Broadcasts S16x448
  shapeCasts_S16x1536_S16x64x24 : S16x1536.ShapeCasts S16x64x24
  shapeCasts_S16x448_S16x64x7 : S16x448.ShapeCasts S16x64x7
  slices_S16x64x7_o0_0_0_S16x64x1 : S16x64x7.Slices ![0, 0, 0] S16x64x1
  broadcasts_S16x64x1_S16x64x24 : S16x64x1.Broadcasts S16x64x24
  slices_S16x64x7_o0_0_1_S16x64x1 : S16x64x7.Slices ![0, 0, 1] S16x64x1
  slices_S16x64x7_o0_0_2_S16x64x1 : S16x64x7.Slices ![0, 0, 2] S16x64x1
  slices_S16x64x7_o0_0_3_S16x64x1 : S16x64x7.Slices ![0, 0, 3] S16x64x1
  slices_S16x64x7_o0_0_4_S16x64x1 : S16x64x7.Slices ![0, 0, 4] S16x64x1
  slices_S16x64x7_o0_0_5_S16x64x1 : S16x64x7.Slices ![0, 0, 5] S16x64x1
  slices_S16x64x7_o0_0_6_S16x64x1 : S16x64x7.Slices ![0, 0, 6] S16x64x1
  concatenates_S16x64x24_S16x64x24_S16x64x24_S16x64x24_S16x64x24_S16x64x24_S16x64x24_S16x64x168_d2 : Shape.Concatenates [S16x64x24, S16x64x24, S16x64x24, S16x64x24, S16x64x24, S16x64x24, S16x64x24] S16x64x168 2
  slices_S16x64x168_o0_0_0_S16x64x16 : S16x64x168.Slices ![0, 0, 0] S16x64x16
  concatenates_S16x64x168_S16x64x168_S16x64x168_S16x64x168_S16x64x168_S16x64x168_S16x64x16_S16x64x1024_d2 : Shape.Concatenates [S16x64x168, S16x64x168, S16x64x168, S16x64x168, S16x64x168, S16x64x168, S16x64x16] S16x64x1024 2
  inb_S16x64x1024_S16x64x1024_0_0_0 : ∀ a, (![0, 0, 0] : Fin 3 → Nat) a + S16x64x1024.size a ≤ S16x64x1024.size a
  h_S16x64x1024 : 0 < S16x64x1024.numel
  transposes_S512x64x1024_S512x1024x64_0_2_1 : S512x64x1024.Transposes [0, 2, 1] S512x1024x64
  dot_S16x64_S64x1536_S16x1536_1_0_0_1_n_n_wf : DotDims.WF S16x64 S64x1536 S16x1536 [1] [0] [0] [1] [] []
  dot_S16x64_S64x448_S16x448_1_0_0_1_n_n_wf : DotDims.WF S16x64 S64x448 S16x448 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64.size a ≤ S512x64.size a
  hwx0_0 : ∀ i : grid0.Coords, EltTy.bits .f32 = 32 ∨ (Rect.block (s := S512x64) S16x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1536.size a ≤ S64x1536.size a
  hwx0_1 : ∀ i : grid0.Coords, EltTy.bits .f32 = 32 ∨ (Rect.block (s := S64x1536) S64x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x448.size a ≤ S64x448.size a
  hwx0_3 : ∀ i : grid0.Coords, EltTy.bits .f32 = 32 ∨ (Rect.block (s := S64x448) S64x448.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x448.size a ≤ S1x448.size a
  hwx0_4 : ∀ i : grid0.Coords, EltTy.bits .f32 = 32 ∨ (Rect.block (s := S1x448) S1x448.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x64x1024.size a ≤ S512x64x1024.size a
  hwx0_5 : ∀ i : grid0.Coords, EltTy.bits .f32 = 32 ∨ (Rect.block (s := S512x64x1024) S16x64x1024.size (cc0_transform_5 i) (hinb0_5 i)).WholeWords (EltTy.packing .f32)

variable [Facts₀]

def dot_S16x64_S64x1536_S16x1536_1_0_0_1_n_n : DotDims S16x64 S64x1536 S16x1536 where
  lhsContracting := [1]
  rhsContracting := [0]
  lhsNonContracting := [0]
  rhsNonContracting := [1]
  lhsBatch := []
  rhsBatch := []
  wf := dot_S16x64_S64x1536_S16x1536_1_0_0_1_n_n_wf
def dot_S16x64_S64x448_S16x448_1_0_0_1_n_n : DotDims S16x64 S64x448 S16x448 where
  lhsContracting := [1]
  rhsContracting := [0]
  lhsNonContracting := [0]
  rhsNonContracting := [1]
  lhsBatch := []
  rhsBatch := []
  wf := dot_S16x64_S64x448_S16x448_1_0_0_1_n_n_wf

abbrev win0_0 : Pipeline.Window sig grid0 :=
  Pipeline.Window.ofSpec (Memref.whole main_arg0) S16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x448.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x448.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x64 : Shape := ⟨2, ![512, 64]⟩
abbrev S64x1536 : Shape := ⟨2, ![64, 1536]⟩
abbrev S1536 : Shape := ⟨1, ![1536]⟩
abbrev S64x448 : Shape := ⟨2, ![64, 448]⟩
abbrev S448 : Shape := ⟨1, ![448]⟩
abbrev S1024 : Shape := ⟨1, ![1024]⟩
abbrev S512x1536 : Shape := ⟨2, ![512, 1536]⟩
abbrev S1x1536 : Shape := ⟨2, ![1, 1536]⟩
abbrev S512x64x24 : Shape := ⟨3, ![512, 64, 24]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S512x64x1024 : Shape := ⟨3, ![512, 64, 1024]⟩
abbrev S512x448 : Shape := ⟨2, ![512, 448]⟩
abbrev S1x448 : Shape := ⟨2, ![1, 448]⟩
abbrev S512x64x7 : Shape := ⟨3, ![512, 64, 7]⟩
abbrev S512x64x1024x1 : Shape := ⟨4, ![512, 64, 1024, 1]⟩
abbrev S512x64x1024x2 : Shape := ⟨4, ![512, 64, 1024, 2]⟩
abbrev S512x1024x64 : Shape := ⟨3, ![512, 1024, 64]⟩

abbrev nBuf : Space → Nat
  | .hbm => 69
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S64x1536, .f32⟩
  | .hbm, ⟨2, _⟩ => ⟨S1536, .f32⟩
  | .hbm, ⟨3, _⟩ => ⟨S64x448, .f32⟩
  | .hbm, ⟨4, _⟩ => ⟨S448, .f32⟩
  | .hbm, ⟨5, _⟩ => ⟨S1024, .i32⟩
  | .hbm, ⟨6, _⟩ => ⟨S1024, .i32⟩
  | .hbm, ⟨7, _⟩ => ⟨S512x1536, .f32⟩
  | .hbm, ⟨8, _⟩ => ⟨S1x1536, .f32⟩
  | .hbm, ⟨9, _⟩ => ⟨S512x1536, .f32⟩
  | .hbm, ⟨10, _⟩ => ⟨S512x1536, .f32⟩
  | .hbm, ⟨11, _⟩ => ⟨S512x64x24, .f32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1, .i32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1x1, .i32⟩
  | .hbm, ⟨25, _⟩ => ⟨S1024x1, .i32⟩
  | .hbm, ⟨26, _⟩ => ⟨S1024x1, .i1⟩
  | .hbm, ⟨27, _⟩ => ⟨S1024x1, .i1⟩
  | .hbm, ⟨28, _⟩ => ⟨S_, .i1⟩
  | .hbm, ⟨29, _⟩ => ⟨S1024, .i1⟩
  | .hbm, ⟨30, _⟩ => ⟨S512x64x1024, .f32⟩
  | .hbm, ⟨31, _⟩ => ⟨S512x64x1024, .i1⟩
  | .hbm, ⟨32, _⟩ => ⟨S_, .f32⟩
  | .hbm, ⟨33, _⟩ => ⟨S512x64x1024, .f32⟩
  | .hbm, ⟨34, _⟩ => ⟨S512x64x1024, .f32⟩
  | .hbm, ⟨35, _⟩ => ⟨S512x448, .f32⟩
  | .hbm, ⟨36, _⟩ => ⟨S1x448, .f32⟩
  | .hbm, ⟨37, _⟩ => ⟨S512x448, .f32⟩
  | .hbm, ⟨38, _⟩ => ⟨S512x448, .f32⟩
  | .hbm, ⟨39, _⟩ => ⟨S512x64x7, .f32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1024x1, .i32⟩
  | .hbm, ⟨48, _⟩ => ⟨S1, .i32⟩
  | .hbm, ⟨49, _⟩ => ⟨S_, .i32⟩
  | .hbm, ⟨50, _⟩ => ⟨S1024x1, .i32⟩
  | .hbm, ⟨51, _⟩ => ⟨S1024x1, .i1⟩
  | .hbm, ⟨52, _⟩ => ⟨S1x1, .i32⟩
  | .hbm, ⟨53, _⟩ => ⟨S1024x1, .i32⟩
  | .hbm, ⟨54, _⟩ => ⟨S1024x1, .i1⟩
  | .hbm, ⟨55, _⟩ => ⟨S1024x1, .i1⟩
  | .hbm, ⟨56, _⟩ => ⟨S_, .i1⟩
  | .hbm, ⟨57, _⟩ => ⟨S1024, .i1⟩
  | .hbm, ⟨58, _⟩ => ⟨S512x64x1024, .f32⟩
  | .hbm, ⟨59, _⟩ => ⟨S512x64x1024, .i1⟩
  | .hbm, ⟨60, _⟩ => ⟨S_, .f32⟩
  | .hbm, ⟨61, _⟩ => ⟨S512x64x1024, .f32⟩
  | .hbm, ⟨62, _⟩ => ⟨S512x64x1024, .f32⟩
  | .hbm, ⟨63, _⟩ => ⟨S512x64x1024x1, .f32⟩
  | .hbm, ⟨64, _⟩ => ⟨S512x64x1024x1, .f32⟩
  | .hbm, ⟨65, _⟩ => ⟨S512x64x1024x2, .f32⟩
  | .hbm, ⟨66, _⟩ => ⟨S_, .f32⟩
  | .hbm, ⟨67, _⟩ => ⟨S512x64x1024, .f32⟩
  | .hbm, ⟨68, _⟩ => ⟨S512x1024x64, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst : Ref sig .tc := ⟨.hbm, 66, rfl⟩
abbrev main_v15 : Ref sig .tc := ⟨.hbm, 67, rfl⟩
abbrev main_v16 : Ref sig .tc := ⟨.hbm, 68, rfl⟩

abbrev nD : Nat := 1
abbrev τ : Topo := Topo.v7x

variable {F : FTy → Type} [FloatOps F]

class Facts₀ : Prop where
  bcast_S1536_S1x1536_1 : S1536.BroadcastsInDim S1x1536 (![1] : Fin 1 → Fin S1x1536.rank)
  bcast_S1x1536_S512x1536_0_1 : S1x1536.BroadcastsInDim S512x1536 (![0, 1] : Fin 2 → Fin S512x1536.rank)
  shapeCasts_S512x1536_S512x64x24 : S512x1536.ShapeCasts S512x64x24
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S512x64x1024_2 : S1024.BroadcastsInDim S512x64x1024 (![2] : Fin 1 → Fin S512x64x1024.rank)
  bcast_S_S512x64x1024 : S_.BroadcastsInDim S512x64x1024 (![] : Fin 0 → Fin S512x64x1024.rank)
  bcast_S448_S1x448_1 : S448.BroadcastsInDim S1x448 (![1] : Fin 1 → Fin S1x448.rank)
  bcast_S1x448_S512x448_0_1 : S1x448.BroadcastsInDim S512x448 (![0, 1] : Fin 2 → Fin S512x448.rank)
  shapeCasts_S512x448_S512x64x7 : S512x448.ShapeCasts S512x64x7
  bcast_S512x64x1024_S512x64x1024x1_0_1_2 : S512x64x1024.BroadcastsInDim S512x64x1024x1 (![0, 1, 2] : Fin 3 → Fin S512x64x1024x1.rank)
  concatenates_S512x64x1024x1_S512x64x1024x1_S512x64x1024x2_d3 : Shape.Concatenates [S512x64x1024x1, S512x64x1024x1] S512x64x1024x2 3
  reducesTo_S512x64x1024x2_S512x64x1024_d3 : S512x64x1024x2.ReducesTo [3] S512x64x1024
  transposes_S512x64x1024_S512x1024x64_0_2_1 : S512x64x1024.Transposes [0, 2, 1] S512x1024x64
  dot_S512x64_S64x1536_S512x1536_1_0_0_1_n_n_wf : DotDims.WF S512x64 S64x1536 S512x1536 [1] [0] [0] [1] [] []
  gather_S512x64x24_S1024x1_S512x64x1024_01_2_n_n_2_1_512641_wf : GatherDims.WF S512x64x24 S1024x1 S512x64x1024 [0, 1] [2] [] [2] [] 1 ![512, 64, 1]
  dot_S512x64_S64x448_S512x448_1_0_0_1_n_n_wf : DotDims.WF S512x64 S64x448 S512x448 [1] [0] [0] [1] [] []
  gather_S512x64x7_S1024x1_S512x64x1024_01_2_n_n_2_1_512641_wf : GatherDims.WF S512x64x7 S1024x1 S512x64x1024 [0, 1] [2] [] [2] [] 1 ![512, 64, 1]

variable [Facts₀]

def dot_S512x64_S64x1536_S512x1536_1_0_0_1_n_n : DotDims S512x64 S64x1536 S512x1536 where
  lhsContracting := [1]
  rhsContracting := [0]
  lhsNonContracting := [0]
  rhsNonContracting := [1]
  lhsBatch := []
  rhsBatch := []
  wf := dot_S512x64_S64x1536_S512x1536_1_0_0_1_n_n_wf
def gather_S512x64x24_S1024x1_S512x64x1024_01_2_n_n_2_1_512641 : GatherDims S512x64x24 S1024x1 S512x64x1024 where
  offsetDims := [0, 1]
  collapsedSliceDims := [2]
  operandBatchingDims := []
  startIndicesBatchingDims := []
  startIndexMap := [2]
  indexVectorDim := 1
  sliceSizes := ![512, 64, 1]
  wf := gather_S512x64x24_S1024x1_S512x64x1024_01_2_n_n_2_1_512641_wf
def dot_S512x64_S64x448_S512x448_1_0_0_1_n_n : DotDims S512x64 S64x448 S512x448 where
  lhsContracting := [1]
  rhsContracting := [0]
  lhsNonContracting := [0]
  rhsNonContracting := [1]
  lhsBatch := []
  rhsBatch := []
  wf := dot_S512x64_S64x448_S512x448_1_0_0_1_n_n_wf
def gather_S512x64x7_S1024x1_S512x64x1024_01_2_n_n_2_1_512641 : GatherDims S512x64x7 S1024x1 S512x64x1024 where
  offsetDims := [0, 1]
  collapsedSliceDims := [2]
  operandBatchingDims := []
  startIndicesBatchingDims := []
  startIndexMap := [2]
  indexVectorDim := 1
  sliceSizes := ![512, 64, 1]
  wf := gather_S512x64x7_S1024x1_S512x64x1024_01_2_n_n_2_1_512641_wf

class Facts : Prop extends Facts₀ where

variable [Facts]
-- ==== Proof.Spec.lean ====
/-
  The seasonal layer as one function of its five argument arrays, over the extended reals.

  Two affine maps of a latent row `z[n, ·]` give per-sample season tables: an hourly table
  `p0[n, j] = ∑ k, z[n, k] · W0[k, j] + b0[j]` with `j = f · 24 + s` (feature `f`, hour `s < 24`) and a weekly
  table `p1[n, j] = ∑ k, z[n, k] · W1[k, j] + b1[j]` with `j = f · 7 + d` (day `d < 7`). The result at sample
  `n`, time step `t < 1024` and feature `f` is the hour entry of step `t` plus its day entry:
  `out[n, t, f] = p0[n, f · 24 + t % 24] + p1[n, f · 7 + (t / 24) % 7]`.
-/
import Idealize.ShloMosaic.PureOps.Ideal
import Idealize.ShloMosaic.Lib.ValueIdx

noncomputable section

open Idealize.ShloMosaic Idealize.ShloMosaic.ValueIdx
open scoped BigOperators

namespace Cert.Seasonal

/-- Entry `(n, j)` of the affine map `z · W + b`: the row `z[n, ·]` against the column `W[·, j]` over the
    64 latent coordinates, plus the bias entry `b[j]`. -/
def affine {N J : Nat} (z : (⟨2, ![N, 64]⟩ : Shape).Idx → EReal) (W : (⟨2, ![64, J]⟩ : Shape).Idx → EReal)
    (b : (⟨1, ![J]⟩ : Shape).Idx → EReal) (n : Fin N) (j : Fin J) : EReal :=
  (∑ k : Fin 64, z (ix2 n k) * W (ix2 k j)) + b (ix1 j)

/-- The hourly table's column read at feature `f` and time step `t`: `f · 24 + t % 24`. -/
def hourCol (f : Fin 64) (t : Fin 1024) : Fin 1536 := ⟨f.val * 24 + t.val % 24, by omega⟩

/-- The weekly table's column read at feature `f` and time step `t`: `f · 7 + (t / 24) % 7`. -/
def dayCol (f : Fin 64) (t : Fin 1024) : Fin 448 := ⟨f.val * 7 + t.val / 24 % 7, by omega⟩

/-- The layer's value at sample `n`, feature `f`, time step `t`: the hour entry plus the day entry. -/
def seasonal {N : Nat} (z : (⟨2, ![N, 64]⟩ : Shape).Idx → EReal)
    (W0 : (⟨2, ![64, 1536]⟩ : Shape).Idx → EReal) (b0 : (⟨1, ![1536]⟩ : Shape).Idx → EReal)
    (W1 : (⟨2, ![64, 448]⟩ : Shape).Idx → EReal) (b1 : (⟨1, ![448]⟩ : Shape).Idx → EReal)
    (n : Fin N) (f : Fin 64) (t : Fin 1024) : EReal :=
  affine z W0 b0 n (hourCol f t) + affine z W1 b1 n (dayCol f t)

/-- The whole result, `[512, 1024, 64]`: entry `(n, t, f)` is `seasonal … n f t`. -/
def G (z : (⟨2, ![512, 64]⟩ : Shape).Idx → EReal)
    (W0 : (⟨2, ![64, 1536]⟩ : Shape).Idx → EReal) (b0 : (⟨1, ![1536]⟩ : Shape).Idx → EReal)
    (W1 : (⟨2, ![64, 448]⟩ : Shape).Idx → EReal) (b1 : (⟨1, ![448]⟩ : Shape).Idx → EReal) :
    (⟨3, ![512, 1024, 64]⟩ : Shape).Idx → EReal :=
  fun i => seasonal z W0 b0 W1 b1 ⟨(i 0).val, (i 0).isLt⟩ ⟨(i 2).val, (i 2).isLt⟩ ⟨(i 1).val, (i 1).isLt⟩

theorem G_ix3 (z : (⟨2, ![512, 64]⟩ : Shape).Idx → EReal)
    (W0 : (⟨2, ![64, 1536]⟩ : Shape).Idx → EReal) (b0 : (⟨1, ![1536]⟩ : Shape).Idx → EReal)
    (W1 : (⟨2, ![64, 448]⟩ : Shape).Idx → EReal) (b1 : (⟨1, ![448]⟩ : Shape).Idx → EReal)
    (n : Fin 512) (t : Fin 1024) (f : Fin 64) :
    G z W0 b0 W1 b1 (ix3 n t f) = seasonal z W0 b0 W1 b1 n f t := rfl

/-- The same layer before the last two axes are exchanged, `[512, 64, 1024]`: entry `(n, f, t)`. -/
def Gt (z : (⟨2, ![512, 64]⟩ : Shape).Idx → EReal)
    (W0 : (⟨2, ![64, 1536]⟩ : Shape).Idx → EReal) (b0 : (⟨1, ![1536]⟩ : Shape).Idx → EReal)
    (W1 : (⟨2, ![64, 448]⟩ : Shape).Idx → EReal) (b1 : (⟨1, ![448]⟩ : Shape).Idx → EReal) :
    (⟨3, ![512, 64, 1024]⟩ : Shape).Idx → EReal :=
  fun i => seasonal z W0 b0 W1 b1 ⟨(i 0).val, (i 0).isLt⟩ ⟨(i 1).val, (i 1).isLt⟩ ⟨(i 2).val, (i 2).isLt⟩

theorem Gt_ix3 (z : (⟨2, ![512, 64]⟩ : Shape).Idx → EReal)
    (W0 : (⟨2, ![64, 1536]⟩ : Shape).Idx → EReal) (b0 : (⟨1, ![1536]⟩ : Shape).Idx → EReal)
    (W1 : (⟨2, ![64, 448]⟩ : Shape).Idx → EReal) (b1 : (⟨1, ![448]⟩ : Shape).Idx → EReal)
    (n : Fin 512) (f : Fin 64) (t : Fin 1024) :
    Gt z W0 b0 W1 b1 (ix3 n f t) = seasonal z W0 b0 W1 b1 n f t := rfl

end Cert.Seasonal

end
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.LibPeriodLayout.lean ====
/-
  Reads at an index, given by coordinates, of the layout operations that tile a periodic table along the last
  axis of a rank-3 array: a matrix whose columns split into groups (`[a, G·c]` viewed as `[a, G, c]`), one lane of
  a rank-3 array added to every lane of another, and the two concatenations that lay equal periods, then a
  truncated last period, end to end.
-/
import Idealize.ShloMosaic.Lib.ValueIdx
import Idealize.ShloMosaic.Lib.Pipeline.Value
import Idealize.ShloMosaic.Lib.ValueLayout

noncomputable section

namespace Cert.PeriodLayout

open Idealize.ShloMosaic Idealize.ShloMosaic.ValueIdx

variable {α : Type}

/-- An `[a, R]` array cast to `[a, G, c]` (R = G·c) reads, at `(p, g, s)`, the operand at row `p`, column
    `r = g·c + s`: the columns are split into `G` groups of `c`. -/
theorem shapeCast_ar_agc_apply {a R G c : ℕ} (x : (⟨2, ![a, R]⟩ : Shape).Idx → α)
    (h : (⟨2, ![a, R]⟩ : Shape).ShapeCasts ⟨3, ![a, G, c]⟩) (hR : R = G * c) (p : Fin a) (g : Fin G) (s : Fin c)
    (r : Fin R) (hr : r.val = g.val * c + s.val) :
    shapeCast ⟨3, ![a, G, c]⟩ x h (ix3 p g s) = x (ix2 p r) :=
  shapeCast_apply x h _ _ (by
    rw [Shape.rowMajor_val_three, Shape.rowMajor_val_two]
    show p.val * R + r.val = (p.val * G + g.val) * c + s.val
    rw [hr, hR]; ring)

/-- The off-axis coordinates of two rank-3 indices that share their first two coordinates agree: what a
    concatenation along the last axis asks of the piece's index. -/
theorem offAxis_ix3 {n0 n1 n2 n2' : ℕ} (p : Fin n0) (g : Fin n1) (s : Fin n2) (s' : Fin n2')
    (hr : (⟨3, ![n0, n1, n2]⟩ : Shape).rank = (⟨3, ![n0, n1, n2']⟩ : Shape).rank) :
    ∀ b : Fin (⟨3, ![n0, n1, n2]⟩ : Shape).rank, b.cast hr ≠ (2 : Fin 3) →
      ((ix3 p g s : (⟨3, ![n0, n1, n2]⟩ : Shape).Idx) b).val = ((ix3 p g s' : (⟨3, ![n0, n1, n2']⟩ : Shape).Idx) (b.cast hr)).val :=
  fun b hb => by
    match b with
    | ⟨0, _⟩ => rfl
    | ⟨1, _⟩ => rfl
    | ⟨2, _⟩ => exact absurd rfl hb

/-- The slice of the first `m` lanes of a rank-3 array reads, at `(p, g, s)`, the operand at the same coordinates. -/
theorem headLanes_apply {n0 n1 n2 m : ℕ} (X : (⟨3, ![n0, n1, n2]⟩ : Shape).Idx → α)
    (h : (⟨3, ![n0, n1, n2]⟩ : Shape).Slices ![0, 0, 0] ⟨3, ![n0, n1, m]⟩) (p : Fin n0) (g : Fin n1) (s : Fin m)
    (k : Fin n2) (hk : k.val = s.val) :
    extractStridedSlice ⟨3, ![n0, n1, m]⟩ ![0, 0, 0] X h (ix3 p g s) = X (ix3 p g k) :=
  extractStridedSlice_apply _ _ _ _ _ (fun ax => by
    match ax with
    | ⟨0, _⟩ => exact (Nat.zero_add _).symm
    | ⟨1, _⟩ => exact (Nat.zero_add _).symm
    | ⟨2, _⟩ => exact hk.trans (Nat.zero_add _).symm)

/-- Lane `d` of a rank-3 array, kept as a unit last axis and broadcast back over `c` lanes, reads, at `(p, g, s)`,
    the operand at `(p, g, d)` whatever `s` is. -/
theorem laneBroadcast_apply {n0 n1 n c : ℕ} (h0 : n0 ≠ 1) (h1 : n1 ≠ 1) (B : (⟨3, ![n0, n1, n]⟩ : Shape).Idx → α) (d : ℕ)
    (hs : (⟨3, ![n0, n1, n]⟩ : Shape).Slices ![0, 0, d] ⟨3, ![n0, n1, 1]⟩)
    (hb : (⟨3, ![n0, n1, 1]⟩ : Shape).Broadcasts ⟨3, ![n0, n1, c]⟩) (p : Fin n0) (g : Fin n1) (s : Fin c)
    (e : Fin n) (he : e.val = d) :
    broadcastTo ⟨3, ![n0, n1, c]⟩ (extractStridedSlice ⟨3, ![n0, n1, 1]⟩ ![0, 0, d] B hs) hb (ix3 p g s) = B (ix3 p g e) := by
  refine (broadcastTo_apply _ hb (ix3 p g s) (ix3 p g (0 : Fin 1)) fun ax => ?_).trans ?_
  · match ax with
    | ⟨0, _⟩ => show p.val = if n0 = 1 then 0 else p.val; rw [if_neg h0]
    | ⟨1, _⟩ => show g.val = if n1 = 1 then 0 else g.val; rw [if_neg h1]
    | ⟨2, _⟩ => rfl
  · exact extractStridedSlice_apply _ _ _ _ _ (fun ax => by
      match ax with
      | ⟨0, _⟩ => exact (Nat.zero_add _).symm
      | ⟨1, _⟩ => exact (Nat.zero_add _).symm
      | ⟨2, _⟩ => exact he.trans (Nat.add_zero _).symm)

end Cert.PeriodLayout

end
-- ==== Proof.KernelPayload.lean ====
/-
  One block of the seasonal kernel, read at an index.

  A grid point holds 16 latent rows `x0[p, ·]`. The body forms two per-row tables by an affine map each — an hourly
  table with 64 × 24 columns (feature `f`, hour `s`: column `f · 24 + s`) and a weekly table with 64 × 7 columns
  (feature `f`, day `d`: column `f · 7 + d`) —, views them as `[16, 64, 24]` and `[16, 64, 7]`, and lays out one week of
  168 = 7 · 24 steps per feature by adding day `d`'s entry to every hour of day `d`. The block's 1024 steps are six whole
  weeks followed by the first 16 steps of a seventh, so step `t` of feature `f` is step `t % 168` of the week: hour
  `t % 24` of day `(t / 24) % 7`. Read at `(p, f, t)`, the block is therefore the hourly table's entry at column
  `f · 24 + t % 24` plus the weekly table's entry at column `f · 7 + (t / 24) % 7`.
-/
import proofs.«113835_g9998683865523_cont_sun_m_317_17_alg».proof.Proof.Gen.KernelIdeal.Skeleton
import proofs.«113835_g9998683865523_cont_sun_m_317_17_alg».proof.Proof.LibReadAt
import proofs.«113835_g9998683865523_cont_sun_m_317_17_alg».proof.Proof.LibPeriodLayout
import proofs.«113835_g9998683865523_cont_sun_m_317_17_alg».proof.Proof.Spec
import Idealize.ShloMosaic.PureOps.Ideal.Laws

noncomputable section

open scoped BigOperators

namespace Cert.Seasonal.Kernel

open Idealize.ShloMosaic Idealize.ShloMosaic.ValueIdx Cert.KernelIdeal Cert.PeriodLayout Cert.ReadAt

/-- A table of the block: the 16 rows against a `[64, n]` weight matrix into a zero accumulator, plus the bias row
    broadcast over the rows. Entry `(p, j)` is the row `x[p, ·]` against the column `w[·, j]`, plus `b[0, j]`. -/
theorem affineBlock_apply {n : ℕ} (x : FVec Ideal ⟨2, ![16, 64]⟩ .f32) (w : FVec Ideal ⟨2, ![64, n]⟩ .f32)
    (b : FVec Ideal ⟨2, ![1, n]⟩ .f32) (hc : (⟨2, ![1, n]⟩ : Shape).ShapeCasts ⟨2, ![1, n]⟩)
    (hb : (⟨2, ![1, n]⟩ : Shape).Broadcasts ⟨2, ![16, n]⟩) (p : Fin 16) (j : Fin n) :
    addf (matmul (DotDims.plain 16 64 n) none x w (constant ⟨2, ![16, n]⟩ .f32 0x00000000#32))
        (broadcastTo ⟨2, ![16, n]⟩ (shapeCast ⟨2, ![1, n]⟩ b hc) hb) (ix2 p j)
      = (∑ k : Fin 64, x (ix2 p k) * w (ix2 k j)) + b (ix2 (0 : Fin 1) j) := by
  rw [addf_apply, matmul_plain_zero_apply, shapeCast_self, broadcastTo_1b_ab_apply]

/-- One week per feature: the seven days' slabs — the 24 hourly entries `A[p, f, ·]` each raised by that day's entry
    `B[p, f, d]` — laid end to end. Step `u` of the week is hour `u % 24` of day `u / 24`. -/
theorem week_apply (A : FVec Ideal S16x64x24 .f32) (B : FVec Ideal S16x64x7 .f32)
    (h0 : S16x64x7.Slices ![0, 0, 0] S16x64x1) (h1 : S16x64x7.Slices ![0, 0, 1] S16x64x1)
    (h2 : S16x64x7.Slices ![0, 0, 2] S16x64x1) (h3 : S16x64x7.Slices ![0, 0, 3] S16x64x1)
    (h4 : S16x64x7.Slices ![0, 0, 4] S16x64x1) (h5 : S16x64x7.Slices ![0, 0, 5] S16x64x1)
    (h6 : S16x64x7.Slices ![0, 0, 6] S16x64x1) (hb : S16x64x1.Broadcasts S16x64x24)
    (hc : Shape.Concatenates [S16x64x24, S16x64x24, S16x64x24, S16x64x24, S16x64x24, S16x64x24, S16x64x24] S16x64x168 2)
    (p : Fin 16) (f : Fin 64) (u : Fin 168) :
    concatenate S16x64x168 2
        [⟨S16x64x24, addf A (broadcastTo S16x64x24 (extractStridedSlice S16x64x1 ![0, 0, 0] B h0) hb)⟩,
        ⟨S16x64x24, addf A (broadcastTo S16x64x24 (extractStridedSlice S16x64x1 ![0, 0, 1] B h1) hb)⟩,
        ⟨S16x64x24, addf A (broadcastTo S16x64x24 (extractStridedSlice S16x64x1 ![0, 0, 2] B h2) hb)⟩,
        ⟨S16x64x24, addf A (broadcastTo S16x64x24 (extractStridedSlice S16x64x1 ![0, 0, 3] B h3) hb)⟩,
        ⟨S16x64x24, addf A (broadcastTo S16x64x24 (extractStridedSlice S16x64x1 ![0, 0, 4] B h4) hb)⟩,
        ⟨S16x64x24, addf A (broadcastTo S16x64x24 (extractStridedSlice S16x64x1 ![0, 0, 5] B h5) hb)⟩,
        ⟨S16x64x24, addf A (broadcastTo S16x64x24 (extractStridedSlice S16x64x1 ![0, 0, 6] B h6) hb)⟩] hc (ix3 p f u)
      = A (ix3 p f ⟨u.val % 24, Nat.mod_lt _ (by decide)⟩) + B (ix3 p f ⟨u.val / 24, by omega⟩) := by
  have hu := u.isLt
  rcases (by omega : u.val < 24 ∨ (24 ≤ u.val ∧ u.val < 48) ∨ (48 ≤ u.val ∧ u.val < 72) ∨ (72 ≤ u.val ∧ u.val < 96)
      ∨ (96 ≤ u.val ∧ u.val < 120) ∨ (120 ≤ u.val ∧ u.val < 144) ∨ 144 ≤ u.val) with h | h | h | h | h | h | h
  · refine (concatenate_apply_piece (t := S16x64x168) 2 _ _ (ix3 p f u) 0 (by simp) S16x64x24 _ rfl rfl 0 rfl
      (ix3 p f ⟨u.val % 24, Nat.mod_lt _ (by decide)⟩) (offAxis_ix3 (n2 := 24) (n2' := 168) p f _ u rfl) (by show 0 + u.val % 24 = u.val; omega)).trans ?_
    rw [addf_apply]
    exact congrArg (A (ix3 p f ⟨u.val % 24, Nat.mod_lt _ (by decide)⟩) + ·)
      (laneBroadcast_apply (by decide) (by decide) B 0 h0 hb p f _ ⟨u.val / 24, by omega⟩ (by show u.val / 24 = 0; omega))
  · refine (concatenate_apply_piece (t := S16x64x168) 2 _ _ (ix3 p f u) 1 (by simp) S16x64x24 _ rfl rfl 24 rfl
      (ix3 p f ⟨u.val % 24, Nat.mod_lt _ (by decide)⟩) (offAxis_ix3 (n2 := 24) (n2' := 168) p f _ u rfl) (by show 24 + u.val % 24 = u.val; omega)).trans ?_
    rw [addf_apply]
    exact congrArg (A (ix3 p f ⟨u.val % 24, Nat.mod_lt _ (by decide)⟩) + ·)
      (laneBroadcast_apply (by decide) (by decide) B 1 h1 hb p f _ ⟨u.val / 24, by omega⟩ (by show u.val / 24 = 1; omega))
  · refine (concatenate_apply_piece (t := S16x64x168) 2 _ _ (ix3 p f u) 2 (by simp) S16x64x24 _ rfl rfl 48 rfl
      (ix3 p f ⟨u.val % 24, Nat.mod_lt _ (by decide)⟩) (offAxis_ix3 (n2 := 24) (n2' := 168) p f _ u rfl) (by show 48 + u.val % 24 = u.val; omega)).trans ?_
    rw [addf_apply]
    exact congrArg (A (ix3 p f ⟨u.val % 24, Nat.mod_lt _ (by decide)⟩) + ·)
      (laneBroadcast_apply (by decide) (by decide) B 2 h2 hb p f _ ⟨u.val / 24, by omega⟩ (by show u.val / 24 = 2; omega))
  · refine (concatenate_apply_piece (t := S16x64x168) 2 _ _ (ix3 p f u) 3 (by simp) S16x64x24 _ rfl rfl 72 rfl
      (ix3 p f ⟨u.val % 24, Nat.mod_lt _ (by decide)⟩) (offAxis_ix3 (n2 := 24) (n2' := 168) p f _ u rfl) (by show 72 + u.val % 24 = u.val; omega)).trans ?_
    rw [addf_apply]
    exact congrArg (A (ix3 p f ⟨u.val % 24, Nat.mod_lt _ (by decide)⟩) + ·)
      (laneBroadcast_apply (by decide) (by decide) B 3 h3 hb p f _ ⟨u.val / 24, by omega⟩ (by show u.val / 24 = 3; omega))
  · refine (concatenate_apply_piece (t := S16x64x168) 2 _ _ (ix3 p f u) 4 (by simp) S16x64x24 _ rfl rfl 96 rfl
      (ix3 p f ⟨u.val % 24, Nat.mod_lt _ (by decide)⟩) (offAxis_ix3 (n2 := 24) (n2' := 168) p f _ u rfl) (by show 96 + u.val % 24 = u.val; omega)).trans ?_
    rw [addf_apply]
    exact congrArg (A (ix3 p f ⟨u.val % 24, Nat.mod_lt _ (by decide)⟩) + ·)
      (laneBroadcast_apply (by decide) (by decide) B 4 h4 hb p f _ ⟨u.val / 24, by omega⟩ (by show u.val / 24 = 4; omega))
  · refine (concatenate_apply_piece (t := S16x64x168) 2 _ _ (ix3 p f u) 5 (by simp) S16x64x24 _ rfl rfl 120 rfl
      (ix3 p f ⟨u.val % 24, Nat.mod_lt _ (by decide)⟩) (offAxis_ix3 (n2 := 24) (n2' := 168) p f _ u rfl) (by show 120 + u.val % 24 = u.val; omega)).trans ?_
    rw [addf_apply]
    exact congrArg (A (ix3 p f ⟨u.val % 24, Nat.mod_lt _ (by decide)⟩) + ·)
      (laneBroadcast_apply (by decide) (by decide) B 5 h5 hb p f _ ⟨u.val / 24, by omega⟩ (by show u.val / 24 = 5; omega))
  · refine (concatenate_apply_piece (t := S16x64x168) 2 _ _ (ix3 p f u) 6 (by simp) S16x64x24 _ rfl rfl 144 rfl
      (ix3 p f ⟨u.val % 24, Nat.mod_lt _ (by decide)⟩) (offAxis_ix3 (n2 := 24) (n2' := 168) p f _ u rfl) (by show 144 + u.val % 24 = u.val; omega)).trans ?_
    rw [addf_apply]
    exact congrArg (A (ix3 p f ⟨u.val % 24, Nat.mod_lt _ (by decide)⟩) + ·)
      (laneBroadcast_apply (by decide) (by decide) B 6 h6 hb p f _ ⟨u.val / 24, by omega⟩ (by show u.val / 24 = 6; omega))

/-- The block's 1024 steps per feature: six whole weeks `W` and the first 16 steps of a seventh, end to end. Step `t`
    is step `t % 168` of the week. -/
theorem tile_apply {α : Type} (W : S16x64x168.Idx → α) (hs : S16x64x168.Slices ![0, 0, 0] S16x64x16)
    (hc : Shape.Concatenates [S16x64x168, S16x64x168, S16x64x168, S16x64x168, S16x64x168, S16x64x168, S16x64x16] S16x64x1024 2)
    (p : Fin 16) (f : Fin 64) (t : Fin 1024) :
    concatenate S16x64x1024 2
        [⟨S16x64x168, W⟩, ⟨S16x64x168, W⟩, ⟨S16x64x168, W⟩, ⟨S16x64x168, W⟩, ⟨S16x64x168, W⟩, ⟨S16x64x168, W⟩,
         ⟨S16x64x16, extractStridedSlice S16x64x16 ![0, 0, 0] W hs⟩] hc (ix3 p f t)
      = W (ix3 p f ⟨t.val % 168, Nat.mod_lt _ (by decide)⟩) := by
  have ht := t.isLt
  rcases (by omega : t.val < 168 ∨ (168 ≤ t.val ∧ t.val < 336) ∨ (336 ≤ t.val ∧ t.val < 504) ∨ (504 ≤ t.val ∧ t.val < 672)
      ∨ (672 ≤ t.val ∧ t.val < 840) ∨ (840 ≤ t.val ∧ t.val < 1008) ∨ 1008 ≤ t.val) with h | h | h | h | h | h | h
  · exact concatenate_apply_piece (t := S16x64x1024) 2 _ _ (ix3 p f t) 0 (by simp) S16x64x168 W rfl rfl 0 rfl
      (ix3 p f ⟨t.val % 168, Nat.mod_lt _ (by decide)⟩) (offAxis_ix3 (n2 := 168) (n2' := 1024) p f _ t rfl) (by show 0 + t.val % 168 = t.val; omega)
  · exact concatenate_apply_piece (t := S16x64x1024) 2 _ _ (ix3 p f t) 1 (by simp) S16x64x168 W rfl rfl 168 rfl
      (ix3 p f ⟨t.val % 168, Nat.mod_lt _ (by decide)⟩) (offAxis_ix3 (n2 := 168) (n2' := 1024) p f _ t rfl) (by show 168 + t.val % 168 = t.val; omega)
  · exact concatenate_apply_piece (t := S16x64x1024) 2 _ _ (ix3 p f t) 2 (by simp) S16x64x168 W rfl rfl 336 rfl
      (ix3 p f ⟨t.val % 168, Nat.mod_lt _ (by decide)⟩) (offAxis_ix3 (n2 := 168) (n2' := 1024) p f _ t rfl) (by show 336 + t.val % 168 = t.val; omega)
  · exact concatenate_apply_piece (t := S16x64x1024) 2 _ _ (ix3 p f t) 3 (by simp) S16x64x168 W rfl rfl 504 rfl
      (ix3 p f ⟨t.val % 168, Nat.mod_lt _ (by decide)⟩) (offAxis_ix3 (n2 := 168) (n2' := 1024) p f _ t rfl) (by show 504 + t.val % 168 = t.val; omega)
  · exact concatenate_apply_piece (t := S16x64x1024) 2 _ _ (ix3 p f t) 4 (by simp) S16x64x168 W rfl rfl 672 rfl
      (ix3 p f ⟨t.val % 168, Nat.mod_lt _ (by decide)⟩) (offAxis_ix3 (n2 := 168) (n2' := 1024) p f _ t rfl) (by show 672 + t.val % 168 = t.val; omega)
  · exact concatenate_apply_piece (t := S16x64x1024) 2 _ _ (ix3 p f t) 5 (by simp) S16x64x168 W rfl rfl 840 rfl
      (ix3 p f ⟨t.val % 168, Nat.mod_lt _ (by decide)⟩) (offAxis_ix3 (n2 := 168) (n2' := 1024) p f _ t rfl) (by show 840 + t.val % 168 = t.val; omega)
  · exact (concatenate_apply_piece (t := S16x64x1024) 2 _ _ (ix3 p f t) 6 (by simp) S16x64x16 _ rfl rfl 1008 rfl
      (ix3 p f ⟨t.val - 1008, by omega⟩) (offAxis_ix3 (n2 := 16) (n2' := 1024) p f _ t rfl) (by show 1008 + (t.val - 1008) = t.val; omega)).trans
      (headLanes_apply W hs p f _ _ (by show t.val % 168 = t.val - 1008; omega))

/-- THE BLOCK AT AN INDEX: entry `(p, f, t)` of what the body stores is the hourly table's entry of row `p` at column
    `f · 24 + t % 24` plus the weekly table's entry of row `p` at column `f · 7 + (t / 24) % 7`. -/
theorem pay_apply (x0 : Vec Ideal S16x64 .f32) (x1 : Vec Ideal S64x1536 .f32) (x2 : Vec Ideal S1x1536 .f32)
    (x3 : Vec Ideal S64x448 .f32) (x4 : Vec Ideal S1x448 .f32) (p : Fin 16) (f : Fin 64) (t : Fin 1024) :
    Gen.k0_pay1 x0 x1 x2 x3 x4 (ix3 p f t)
      = ((∑ k : Fin 64, x0 (ix2 p k) * x1 (ix2 k (hourCol f t))) + x2 (ix2 (0 : Fin 1) (hourCol f t)))
        + ((∑ k : Fin 64, x0 (ix2 p k) * x3 (ix2 k (dayCol f t))) + x4 (ix2 (0 : Fin 1) (dayCol f t))) := by
  have ht := t.isLt
  unfold Gen.k0_pay1
  refine (tile_apply _ _ _ p f t).trans ?_
  refine (week_apply _ _ _ _ _ _ _ _ _ _ _ p f _).trans ?_
  refine congrArg₂ (· + ·) ?_ ?_
  · refine (shapeCast_ar_agc_apply _ _ rfl p f _ (hourCol f t) ?_).trans ?_
    · show f.val * 24 + t.val % 24 = f.val * 24 + t.val % 168 % 24; omega
    · exact affineBlock_apply x0 x1 x2 _ _ p (hourCol f t)
  · refine (shapeCast_ar_agc_apply _ _ rfl p f _ (dayCol f t) ?_).trans ?_
    · show f.val * 7 + t.val / 24 % 7 = f.val * 7 + t.val % 168 / 24; omega
    · exact affineBlock_apply x0 x3 x4 _ _ p (dayCol f t)

end Cert.Seasonal.Kernel

end
-- ==== Proof.KernelBlocks.lean ====
/-
  From the blocks to the whole array: after the region, the kernel's result array before the final exchange of axes
  is the seasonal layer `Gt` of the five argument arrays.

  Grid point `i` of the 32 stages rows `16 i … 16 i + 15` of the latent array and the two weight matrices and the two
  bias rows whole (the bias rows as `[1, J]` views of the bias vectors), and writes back rows `16 i … 16 i + 15` of the
  `[512, 64, 1024]` result. By the block's value at an index, what point `i` writes back is block `i` of `Gt`; the 32
  blocks cover the array (row `r` lies in block `r / 16`), so the array ends holding `Gt`.
-/
import proofs.«113835_g9998683865523_cont_sun_m_317_17_alg».proof.Proof.Gen.KernelIdeal.Frame
import proofs.«113835_g9998683865523_cont_sun_m_317_17_alg».proof.Proof.KernelPayload
import Idealize.ShloMosaic.Lib.Pipeline.Value
import Idealize.ShloMosaic.Lib.ValueLayout
import Idealize.ShloMosaic.Lib.Tactic

set_option maxRecDepth 16384

noncomputable section

open scoped BigOperators

namespace Cert.Seasonal.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the latent rows and the result move with the point along axis 0, every other
    window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem point_lt (t : Fin cfg0.N) : t.val < 32 := lt_of_lt_of_eq t.isLt N_0

/-! ## The arrays the region finds -/

/-- The hourly bias row as the region finds it: the bias vector viewed as `[1, 1536]`. -/
theorem V_main_v0 (c : Dev nD) : (V m c main_v0 : S1x1536.Idx → EReal)
    = shapeCast S1x1536 (m ((c : Thread nD τ).loc main_arg2) : S1536.Idx → EReal) Facts₀.shapeCasts_S1536_S1x1536 := by
  show StableHlo.after hostOps0 (fun b => m (c, b)) (Proc.devRef .tc main_v0) = _
  after_results
  rfl

/-- The weekly bias row as the region finds it: the bias vector viewed as `[1, 448]`. -/
theorem V_main_v1 (c : Dev nD) : (V m c main_v1 : S1x448.Idx → EReal)
    = shapeCast S1x448 (m ((c : Thread nD τ).loc main_arg4) : S448.Idx → EReal) Facts₀.shapeCasts_S448_S1x448 := by
  show StableHlo.after hostOps0 (fun b => m (c, b)) (Proc.devRef .tc main_v1) = _
  after_results
  rfl

/-! ## Each input block at an index -/

/-- The latent block at point `t` is rows `16 t … 16 t + 15` of the latent array. -/
theorem iblk0_apply (c : Dev nD) (t : Fin cfg0.N) (p : Fin 16) (k : Fin 64) :
    (iblk m c 0 t : Vec Ideal S16x64 .f32) (ix2 p k)
      = (m ((c : Thread nD τ).loc main_arg0) : S512x64.Idx → EReal) (ix2 ⟨16 * t.val + p.val, by have := point_lt t; omega⟩ k) := by
  obtain ⟨h0, h1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 16 + 1 * p.val = 16 * t.val + p.val; omega
  | ⟨1, _⟩ => show win0_0.index t (1 : Fin 2) * 64 + 1 * k.val = k.val; omega

/-- The hourly weight block at every point is the whole hourly weight matrix. -/
theorem iblk1_apply (c : Dev nD) (t : Fin cfg0.N) (k : Fin 64) (j : Fin 1536) :
    (iblk m c 1 t : Vec Ideal S64x1536 .f32) (ix2 k j) = (m ((c : Thread nD τ).loc main_arg1) : S64x1536.Idx → EReal) (ix2 k j) := by
  obtain ⟨-, -, h0, h1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 64 + 1 * k.val = k.val; omega
  | ⟨1, _⟩ => show win0_1.index t (1 : Fin 2) * 1536 + 1 * j.val = j.val; omega

/-- The hourly bias block at every point is the hourly bias vector, as a row. -/
theorem iblk2_apply (c : Dev nD) (t : Fin cfg0.N) (j : Fin 1536) :
    (iblk m c 2 t : Vec Ideal S1x1536 .f32) (ix2 (0 : Fin 1) j) = (m ((c : Thread nD τ).loc main_arg2) : S1536.Idx → EReal) (ix1 j) := by
  obtain ⟨-, -, -, -, h0, h1, -⟩ := idx_facts t
  unfold iblk
  rw [View.read_apply]
  show V m c main_v0 _ = _
  rw [V_main_v0]
  refine Eq.trans (congrArg _ (funext fun a => Fin.ext ?_)) (shapeCast_a_1a_apply _ _ (0 : Fin 1) j)
  match a with
  | ⟨0, _⟩ => show win0_2.index t (0 : Fin 2) * 1 + 1 * 0 = 0; omega
  | ⟨1, _⟩ => show win0_2.index t (1 : Fin 2) * 1536 + 1 * j.val = j.val; omega

/-- The weekly weight block at every point is the whole weekly weight matrix. -/
theorem iblk3_apply (c : Dev nD) (t : Fin cfg0.N) (k : Fin 64) (j : Fin 448) :
    (iblk m c 3 t : Vec Ideal S64x448 .f32) (ix2 k j) = (m ((c : Thread nD τ).loc main_arg3) : S64x448.Idx → EReal) (ix2 k j) := by
  obtain ⟨-, -, -, -, -, -, h0, h1, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 2) * 64 + 1 * k.val = k.val; omega
  | ⟨1, _⟩ => show win0_3.index t (1 : Fin 2) * 448 + 1 * j.val = j.val; omega

/-- The weekly bias block at every point is the weekly bias vector, as a row. -/
theorem iblk4_apply (c : Dev nD) (t : Fin cfg0.N) (j : Fin 448) :
    (iblk m c 4 t : Vec Ideal S1x448 .f32) (ix2 (0 : Fin 1) j) = (m ((c : Thread nD τ).loc main_arg4) : S448.Idx → EReal) (ix1 j) := by
  obtain ⟨-, -, -, -, -, -, -, -, h0, h1, -⟩ := idx_facts t
  unfold iblk
  rw [View.read_apply]
  show V m c main_v1 _ = _
  rw [V_main_v1]
  refine Eq.trans (congrArg _ (funext fun a => Fin.ext ?_)) (shapeCast_a_1a_apply _ _ (0 : Fin 1) j)
  match a with
  | ⟨0, _⟩ => show win0_4.index t (0 : Fin 2) * 1 + 1 * 0 = 0; omega
  | ⟨1, _⟩ => show win0_4.index t (1 : Fin 2) * 448 + 1 * j.val = j.val; omega

/-! ## One block of the result -/

/-- A block computed from rows `16 i … 16 i + 15` of the latent array, the two weight matrices and the two bias vectors
    (as rows) is, at `y`, the layer `Gt` at the array index `g` that sits `16 i` rows further down. -/
theorem block_entry (z : S512x64.Idx → EReal) (W0 : S64x1536.Idx → EReal) (b0 : S1536.Idx → EReal)
    (W1 : S64x448.Idx → EReal) (b1 : S448.Idx → EReal)
    (x0 : Vec Ideal S16x64 .f32) (x1 : Vec Ideal S64x1536 .f32) (x2 : Vec Ideal S1x1536 .f32)
    (x3 : Vec Ideal S64x448 .f32) (x4 : Vec Ideal S1x448 .f32) (i : ℕ) (hi : i < 32)
    (e0 : ∀ (p : Fin 16) (k : Fin 64), x0 (ix2 p k) = z (ix2 ⟨16 * i + p.val, by omega⟩ k))
    (e1 : ∀ (k : Fin 64) (j : Fin 1536), x1 (ix2 k j) = W0 (ix2 k j))
    (e2 : ∀ j : Fin 1536, x2 (ix2 (0 : Fin 1) j) = b0 (ix1 j))
    (e3 : ∀ (k : Fin 64) (j : Fin 448), x3 (ix2 k j) = W1 (ix2 k j))
    (e4 : ∀ j : Fin 448, x4 (ix2 (0 : Fin 1) j) = b1 (ix1 j))
    (y : S16x64x1024.Idx) (g : S512x64x1024.Idx)
    (hg0 : (g 0).val = 16 * i + (y 0).val) (hg1 : (g 1).val = (y 1).val) (hg2 : (g 2).val = (y 2).val) :
    Gen.k0_pay1 x0 x1 x2 x3 x4 y = Gt z W0 b0 W1 b1 g := by
  have hy : (y 0).val < 16 := (y 0).isLt
  have hb : 16 * i + (y 0).val < 512 := by omega
  obtain ⟨p, f, t, rfl⟩ : ∃ (p : Fin 16) (f : Fin 64) (t : Fin 1024), y = ix3 p f t := ⟨y 0, y 1, y 2, eq_ix3 y⟩
  obtain ⟨n, f', t', rfl⟩ : ∃ (n : Fin 512) (f' : Fin 64) (t' : Fin 1024), g = ix3 n f' t' := ⟨g 0, g 1, g 2, eq_ix3 g⟩
  obtain rfl : n = ⟨16 * i + p.val, hb⟩ := Fin.ext hg0
  obtain rfl : f' = f := Fin.ext hg1
  obtain rfl : t' = t := Fin.ext hg2
  rw [pay_apply, Gt_ix3]
  unfold seasonal affine
  rw [e2, e4]
  simp only [e0, e1, e3]

/-! ## What each point writes back, the cover, the array -/

/-- WHAT POINT `t` WRITES BACK is block `t` of the layer `Gt` of the argument arrays. -/
theorem flushed_eq (c : Dev nD) (t : Fin cfg0.N) :
    (dats m 0 c).flushed 5 t = ((cfg0.win 5).blk t).view.read (Elt Ideal)
      (Gt (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5]
  unfold out0_5
  rw [View.canon_unit_zero hz3]
  simp only [View.ld_unit_zero (S := S16x64) hz2, View.ld_unit_zero (S := S64x1536) hz2, View.ld_unit_zero (S := S1x1536) hz2,
    View.ld_unit_zero (S := S64x448) hz2, View.ld_unit_zero (S := S1x448) hz2]
  obtain ⟨-, -, -, -, -, -, -, -, -, -, h0, h1, h2⟩ := idx_facts t
  funext y
  refine block_entry _ _ _ _ _ (iblk m c 0 t) (iblk m c 1 t) (iblk m c 2 t) (iblk m c 3 t) (iblk m c 4 t) t.val (point_lt t)
    (iblk0_apply m c t) (iblk1_apply m c t) (iblk2_apply m c t) (iblk3_apply m c t) (iblk4_apply m c t)
    y (((cfg0.win 5).blk t).view.emb y) ?_ ?_ ?_
  · show win0_5.index t (0 : Fin 3) * 16 + 1 * (y 0).val = 16 * t.val + (y 0).val; omega
  · show win0_5.index t (1 : Fin 3) * 64 + 1 * (y 1).val = (y 1).val; omega
  · show win0_5.index t (2 : Fin 3) * 1024 + 1 * (y 2).val = (y 2).val; omega

/-- An index of the array is in point `t`'s block iff each coordinate is in the block's range on its axis. -/
theorem mem_blk (t : Fin cfg0.N) (i : S512x64x1024.Idx) :
    i ∈ ((cfg0.win 5).blk t).view.set ↔ ∀ a : Fin 3, win0_5.index t a * S16x64x1024.size a ≤ (i a).val ∧ (i a).val < win0_5.index t a * S16x64x1024.size a + S16x64x1024.size a := by
  show i ∈ ((View.whole main_v2).slice (win0_5.rect t)).set ↔ _
  rw [View.set_slice_whole, Rect.mem_set_unit]
  exact Iff.rfl

/-- Every index of the array is in some point's block: row `r` is in block `r / 16`. -/
theorem cover (i : S512x64x1024.Idx) : ∃ t : Fin cfg0.N, (cfg0.win 5).flush t = true ∧ i ∈ ((cfg0.win 5).blk t).view.set := by
  have hi0 : (i 0).val < 512 := (i 0).isLt
  have hi1 : (i 1).val < 64 := (i 1).isLt
  have hi2 : (i 2).val < 1024 := (i 2).isLt
  let t : Fin cfg0.N := ⟨(i 0).val / 16, lt_of_lt_of_eq (by omega : (i 0).val / 16 < 32) N_0.symm⟩
  obtain ⟨-, -, -, -, -, -, -, -, -, -, h0, h1, h2⟩ := idx_facts t
  have ht : t.val = (i 0).val / 16 := rfl
  refine ⟨t, flush0_5 t, ?_⟩
  rw [mem_blk]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 64 ≤ (i 1).val ∧ (i 1).val < win0_5.index t (1 : Fin 3) * 64 + 64; omega
  | ⟨2, _⟩ => show win0_5.index t (2 : Fin 3) * 1024 ≤ (i 2).val ∧ (i 2).val < win0_5.index t (2 : Fin 3) * 1024 + 1024; omega

/-- THE ARRAY after the region: the layer `Gt` of the argument arrays. -/
theorem final (c : Dev nD) : (dats m 0 c).arrAt 5 cfg0.N
    = Gt (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

end Cert.Seasonal.Kernel

end
-- ==== Proof.KernelRun.lean ====
/-
  The kernel's run: every execution of the program ends with the result array holding the seasonal layer `G` of the
  five argument arrays, and the arguments as they were.

  After the region the `[512, 64, 1024]` array holds `Gt` (entry `(n, f, t)`); the one host operation after it exchanges
  the last two axes, and `G` is `Gt` with those axes exchanged (entry `(n, t, f)`), so the `[512, 1024, 64]` result is `G`.
-/
import proofs.«113835_g9998683865523_cont_sun_m_317_17_alg».proof.Proof.KernelBlocks

set_option maxRecDepth 16384

noncomputable section

namespace Cert.Seasonal.Kernel

open Idealize.ShloMosaic Idealize.ShloMosaic.TcCoe Idealize.ShloMosaic.ValueIdx Idealize.SL.Sem
open Idealize.ShloMosaic.Pipeline (Dat)
open Cert.KernelIdeal Cert.KernelIdeal.Gen

/-- Exchanging the last two axes of `Gt` gives `G`: both read the layer at sample `n`, feature `f`, step `t`. -/
theorem transpose_Gt (z : S512x64.Idx → EReal) (W0 : S64x1536.Idx → EReal) (b0 : S1536.Idx → EReal)
    (W1 : S64x448.Idx → EReal) (b1 : S448.Idx → EReal) (h : S512x64x1024.Transposes [0, 2, 1] S512x1024x64) :
    transpose S512x1024x64 [0, 2, 1] (Gt z W0 b0 W1 b1) h = G z W0 b0 W1 b1 := by
  funext i
  obtain ⟨n, t, f, rfl⟩ : ∃ (n : Fin 512) (t : Fin 1024) (f : Fin 64), i = ix3 n t f := ⟨i 0, i 1, i 2, eq_ix3 i⟩
  rw [transpose_ix3_021_apply, G_ix3, Gt_ix3]

variable (m : (ℓ : Loc nD τ sig) → Buf (Elt Ideal) ℓ) (ρ : Dev nD → PrngReg)

/-- What the host operation after the region leaves in the result array: the layer `G` of the argument arrays. -/
theorem tail_main_v3 (c : Dev nD) :
    Pipeline.afterTail₀ cfgs (dats m) 0 (V0 m) [hostOps1] c main_v3
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v3) = _
  after_results
  rw [(Pipeline.withArrays_arr spec0 launch0.win.arr_inj c _ _ 5).trans (final m c)]
  exact transpose_Gt _ _ _ _ _ _

/-- THE RUN: every weakly fair execution of the program terminates; the result array ends at `G` of the argument
    arrays and each argument array ends as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = Cert.Seasonal.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_main_v3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Seasonal.Kernel

end
-- ==== Proof.RefTerm.lean ====
/-
  The reference program's result as ONE pure term of its five argument arrays, stage by stage.

  The reference forms each season table by a matrix product and a bias (`table24`, `table7`), re-laid as
  `[512, 64, seasons]`, and expands it along the time axis by `jnp.take` with a constant table of season numbers
  (`hourIdx`: step `t ↦ t % 24`; `dayIdx`: step `t ↦ (t / 24) % 7`). `jnp.take` is: wrap a negative index once
  (`wrapped`), gather along the last axis at the wrapped index (StableHLO clamps it into range), and put a NaN
  where the wrapped index lies outside `[0, seasons - 1]` (`inBounds`, `take24`, `take7`). The two expanded tables
  are stacked on a new last axis, summed over it from 0, and the last two axes exchanged (`out`).
-/
import proofs.«113835_g9998683865523_cont_sun_m_317_17_alg».proof.Proof.Gen.ReferenceIdeal

noncomputable section

namespace Cert.Seasonal.Ref

open Idealize.ShloMosaic Cert.ReferenceIdeal Cert.ReferenceIdeal.Gen

variable {F : FTy → Type} [FloatOps F]

/-- The constant table of hour numbers, one per time step. -/
def hourIdx : IVec S1024 32 := fun i => lit0 (S1024.rowMajor i)

/-- The constant table of day numbers, one per time step. -/
def dayIdx : IVec S1024 32 := fun i => lit1 (S1024.rowMajor i)

/-- A negative index wrapped once: `idx < 0 ? idx + n : idx`. -/
def wrapped (n : BitVec 32) (idx : IVec S1024 32) : IVec S1024 32 :=
  select (cmpi .slt idx (broadcastInDim S1024 ![] bcast_S_S1024 (constantI S_ 32 0#32)))
    (addi idx (broadcastInDim S1024 ![] bcast_S_S1024 (constantI S_ 32 n))) idx

/-- The wrapped indices as the gather's start indices, `[1024, 1]`. -/
def startIdx (n : BitVec 32) (idx : IVec S1024 32) : IVec S1024x1 32 :=
  broadcastInDim S1024x1 ![0] bcast_S1024_S1024x1_0 (wrapped n idx)

/-- Per time step: does the start index lie in `[0, hi]`? -/
def inBounds (hi : BitVec 32) (s : IVec S1024x1 32) : IVec S1024 1 :=
  Host.reduce IntOp.andi
    (andi (cmpi .sge s (broadcastInDim S1024x1 ![] bcast_S_S1024x1 (constantI S_ 32 0#32)))
      (cmpi .sle s (broadcastInDim S1024x1 ![0, 1] bcast_S1x1_S1024x1_0_1
        (broadcastInDim S1x1 ![1] bcast_S1_S1x1_1 (constantI S1 32 hi)))))
    (constantI S_ 1 1#1) reducesTo_S1024x1_S1024_d1 h_S_

/-- `jnp.take` of the hourly table `[512, 64, 24]` along its last axis at 1024 indices. -/
def take24 (x : FVec F S512x64x24 .f32) (idx : IVec S1024 32) : FVec F S512x64x1024 .f32 :=
  select (broadcastInDim S512x64x1024 ![2] bcast_S1024_S512x64x1024_2 (inBounds 23#32 (startIdx 24#32 idx)))
    (Host.gather gather_S512x64x24_S1024x1_S512x64x1024_01_2_n_n_2_1_512641 x (startIdx 24#32 idx))
    (broadcastInDim S512x64x1024 ![] bcast_S_S512x64x1024 (constant S_ .f32 0x7FC00000#32))

/-- `jnp.take` of the weekly table `[512, 64, 7]` along its last axis at 1024 indices. -/
def take7 (x : FVec F S512x64x7 .f32) (idx : IVec S1024 32) : FVec F S512x64x1024 .f32 :=
  select (broadcastInDim S512x64x1024 ![2] bcast_S1024_S512x64x1024_2 (inBounds 6#32 (startIdx 7#32 idx)))
    (Host.gather gather_S512x64x7_S1024x1_S512x64x1024_01_2_n_n_2_1_512641 x (startIdx 7#32 idx))
    (broadcastInDim S512x64x1024 ![] bcast_S_S512x64x1024 (constant S_ .f32 0x7FC00000#32))

/-- The hourly season table: `z · W0 + b0`, re-laid as `[512, 64, 24]`. -/
def table24 (z : FVec F S512x64 .f32) (W0 : FVec F S64x1536 .f32) (b0 : FVec F S1536 .f32) : FVec F S512x64x24 .f32 :=
  shapeCast S512x64x24
    (addf (Host.dotGeneral dot_S512x64_S64x1536_S512x1536_1_0_0_1_n_n none z W0)
      (broadcastInDim S512x1536 ![0, 1] bcast_S1x1536_S512x1536_0_1 (broadcastInDim S1x1536 ![1] bcast_S1536_S1x1536_1 b0)))
    shapeCasts_S512x1536_S512x64x24

/-- The weekly season table: `z · W1 + b1`, re-laid as `[512, 64, 7]`. -/
def table7 (z : FVec F S512x64 .f32) (W1 : FVec F S64x448 .f32) (b1 : FVec F S448 .f32) : FVec F S512x64x7 .f32 :=
  shapeCast S512x64x7
    (addf (Host.dotGeneral dot_S512x64_S64x448_S512x448_1_0_0_1_n_n none z W1)
      (broadcastInDim S512x448 ![0, 1] bcast_S1x448_S512x448_0_1 (broadcastInDim S1x448 ![1] bcast_S448_S1x448_1 b1)))
    shapeCasts_S512x448_S512x64x7

/-- The two expanded tables stacked on a new last axis and summed over it from 0, `[512, 64, 1024]`. -/
def summed (a b : FVec F S512x64x1024 .f32) : FVec F S512x64x1024 .f32 :=
  Host.reduceAdd
    (concatenate S512x64x1024x2 3
      [⟨S512x64x1024x1, broadcastInDim S512x64x1024x1 ![0, 1, 2] bcast_S512x64x1024_S512x64x1024x1_0_1_2 a⟩,
       ⟨S512x64x1024x1, broadcastInDim S512x64x1024x1 ![0, 1, 2] bcast_S512x64x1024_S512x64x1024x1_0_1_2 b⟩]
      concatenates_S512x64x1024x1_S512x64x1024x1_S512x64x1024x2_d3)
    (constant S_ .f32 0x00000000#32) reducesTo_S512x64x1024x2_S512x64x1024_d3 h_S_

/-- The reference's result, `[512, 1024, 64]`. -/
def out (z : FVec F S512x64 .f32) (W0 : FVec F S64x1536 .f32) (b0 : FVec F S1536 .f32)
    (W1 : FVec F S64x448 .f32) (b1 : FVec F S448 .f32) : FVec F S512x1024x64 .f32 :=
  transpose S512x1024x64 [0, 2, 1]
    (summed (take24 (table24 z W0 b0) hourIdx) (take7 (table7 z W1 b1) dayIdx))
    transposes_S512x64x1024_S512x1024x64_0_2_1

end Cert.Seasonal.Ref

end
-- ==== Proof.RefOps.lean ====
/-
  The reference program as a straight line.

  The program's entry point is a sequence of whole-array operations; two of them are calls of `jnp.take`'s
  outlined function (itself calling `jnp.where`'s), each call meaning its body over that call's own buffers.
  With the two bodies substituted at their call sites the entry point is one list of sixty-four operations:
  the two constant tables of season numbers; the hourly season table (matrix product, bias, re-laying) and its
  expansion along the time axis (twenty-three operations: the index wrapped once, the gather, the in-range mask,
  the NaN fill, the select); the same for the weekly table; the two expanded tables stacked on a new last axis,
  summed over it from zero, and the last two axes exchanged. Every operation touches TensorCore buffers only.
-/
import proofs.«113835_g9998683865523_cont_sun_m_317_17_alg».proof.Proof.Gen.ReferenceIdeal
import proofs.«113835_g9998683865523_cont_sun_m_317_17_alg».proof.Proof.RefTerm
import Idealize.ShloMosaic.Lib.StableHlo.Run

noncomputable section

namespace Cert.Seasonal.Ref

open Idealize.ShloMosaic Idealize.ShloMosaic.TcCoe Idealize.ShloMosaic.StableHlo Idealize.SL.Sem
open Cert.ReferenceIdeal Cert.ReferenceIdeal.Gen

variable {F : FTy → Type} [FloatOps F]

/-- The entry point's sixty-four operations in order, the two calls replaced by their bodies over the calls' buffers. -/
abbrev ops : List (HloOp τ sig (Elt F)) :=
  [ nullary main_c hourIdx,
    nullary main_c_0 dayIdx,
    binary main_arg0 main_arg1 main_v0 ((fun l r => Host.dotGeneral dot_S512x64_S64x1536_S512x1536_1_0_0_1_n_n none l r) : (⟨S512x64, .f32⟩ : BufTy).Contents (Elt F) → (⟨S64x1536, .f32⟩ : BufTy).Contents (Elt F) → (⟨S512x1536, .f32⟩ : BufTy).Contents (Elt F)),
    unary main_arg2 main_v1 (broadcastInDim S1x1536 ![1] bcast_S1536_S1x1536_1 : (⟨S1536, .f32⟩ : BufTy).Contents (Elt F) → (⟨S1x1536, .f32⟩ : BufTy).Contents (Elt F)),
    unary main_v1 main_v2 (broadcastInDim S512x1536 ![0, 1] bcast_S1x1536_S512x1536_0_1 : (⟨S1x1536, .f32⟩ : BufTy).Contents (Elt F) → (⟨S512x1536, .f32⟩ : BufTy).Contents (Elt F)),
    binary main_v0 main_v2 main_v3 (addf : (⟨S512x1536, .f32⟩ : BufTy).Contents (Elt F) → (⟨S512x1536, .f32⟩ : BufTy).Contents (Elt F) → (⟨S512x1536, .f32⟩ : BufTy).Contents (Elt F)),
    reshape main_v3 main_v4 rfl shapeCasts_S512x1536_S512x64x24,
    nullary main_call0_c (constantI S_ 32 0#32),
    unary main_call0_c main_call0_v0 (broadcastInDim S1024 ![] bcast_S_S1024),
    binary main_c main_call0_v0 main_call0_v1 (cmpi .slt),
    nullary main_call0_c_0 (constantI S_ 32 24#32),
    unary main_call0_c_0 main_call0_v2 (broadcastInDim S1024 ![] bcast_S_S1024),
    binary main_c main_call0_v2 main_call0_v3 addi,
    ternary main_call0_v1 main_call0_v3 main_c main_call0_v4 select,
    unary main_call0_v4 main_call0_v5 (broadcastInDim S1024x1 ![0] bcast_S1024_S1024x1_0),
    nullary main_call0_c_1 (constantI S1 32 23#32),
    nullary main_call0_c_2 (constantI S_ 32 0#32),
    unary main_call0_c_2 main_call0_v6 (broadcastInDim S1024x1 ![] bcast_S_S1024x1),
    binary main_call0_v5 main_call0_v6 main_call0_v7 (cmpi .sge),
    unary main_call0_c_1 main_call0_v8 (broadcastInDim S1x1 ![1] bcast_S1_S1x1_1),
    unary main_call0_v8 main_call0_v9 (broadcastInDim S1024x1 ![0, 1] bcast_S1x1_S1024x1_0_1),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S1024x1_S1024_d1 h_S_),
    binary main_v4 main_call0_v5 main_call0_v13 (fun x i => Host.gather gather_S512x64x24_S1024x1_S512x64x1024_01_2_n_n_2_1_512641 x i),
    unary main_call0_v12 main_call0_v14 (broadcastInDim S512x64x1024 ![2] bcast_S1024_S512x64x1024_2),
    nullary main_call0_cst (constant S_ .f32 0x7FC00000#32),
    unary main_call0_cst main_call0_v15 (broadcastInDim S512x64x1024 ![] bcast_S_S512x64x1024),
    ternary main_call0_v14 main_call0_v13 main_call0_v15 main_v5 select,
    binary main_arg0 main_arg3 main_v6 ((fun l r => Host.dotGeneral dot_S512x64_S64x448_S512x448_1_0_0_1_n_n none l r) : (⟨S512x64, .f32⟩ : BufTy).Contents (Elt F) → (⟨S64x448, .f32⟩ : BufTy).Contents (Elt F) → (⟨S512x448, .f32⟩ : BufTy).Contents (Elt F)),
    unary main_arg4 main_v7 (broadcastInDim S1x448 ![1] bcast_S448_S1x448_1 : (⟨S448, .f32⟩ : BufTy).Contents (Elt F) → (⟨S1x448, .f32⟩ : BufTy).Contents (Elt F)),
    unary main_v7 main_v8 (broadcastInDim S512x448 ![0, 1] bcast_S1x448_S512x448_0_1 : (⟨S1x448, .f32⟩ : BufTy).Contents (Elt F) → (⟨S512x448, .f32⟩ : BufTy).Contents (Elt F)),
    binary main_v6 main_v8 main_v9 (addf : (⟨S512x448, .f32⟩ : BufTy).Contents (Elt F) → (⟨S512x448, .f32⟩ : BufTy).Contents (Elt F) → (⟨S512x448, .f32⟩ : BufTy).Contents (Elt F)),
    reshape main_v9 main_v10 rfl shapeCasts_S512x448_S512x64x7,
    nullary main_call1_c (constantI S_ 32 0#32),
    unary main_call1_c main_call1_v0 (broadcastInDim S1024 ![] bcast_S_S1024),
    binary main_c_0 main_call1_v0 main_call1_v1 (cmpi .slt),
    nullary main_call1_c_0 (constantI S_ 32 7#32),
    unary main_call1_c_0 main_call1_v2 (broadcastInDim S1024 ![] bcast_S_S1024),
    binary main_c_0 main_call1_v2 main_call1_v3 addi,
    ternary main_call1_v1 main_call1_v3 main_c_0 main_call1_v4 select,
    unary main_call1_v4 main_call1_v5 (broadcastInDim S1024x1 ![0] bcast_S1024_S1024x1_0),
    nullary main_call1_c_1 (constantI S1 32 6#32),
    nullary main_call1_c_2 (constantI S_ 32 0#32),
    unary main_call1_c_2 main_call1_v6 (broadcastInDim S1024x1 ![] bcast_S_S1024x1),
    binary main_call1_v5 main_call1_v6 main_call1_v7 (cmpi .sge),
    unary main_call1_c_1 main_call1_v8 (broadcastInDim S1x1 ![1] bcast_S1_S1x1_1),
    unary main_call1_v8 main_call1_v9 (broadcastInDim S1024x1 ![0, 1] bcast_S1x1_S1024x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S1024x1_S1024_d1 h_S_),
    binary main_v10 main_call1_v5 main_call1_v13 (fun x i => Host.gather gather_S512x64x7_S1024x1_S512x64x1024_01_2_n_n_2_1_512641 x i),
    unary main_call1_v12 main_call1_v14 (broadcastInDim S512x64x1024 ![2] bcast_S1024_S512x64x1024_2),
    nullary main_call1_cst (constant S_ .f32 0x7FC00000#32),
    unary main_call1_cst main_call1_v15 (broadcastInDim S512x64x1024 ![] bcast_S_S512x64x1024),
    ternary main_call1_v14 main_call1_v13 main_call1_v15 main_v11 select,
    unary main_v5 main_v12 (broadcastInDim S512x64x1024x1 ![0, 1, 2] bcast_S512x64x1024_S512x64x1024x1_0_1_2 : (⟨S512x64x1024, .f32⟩ : BufTy).Contents (Elt F) → (⟨S512x64x1024x1, .f32⟩ : BufTy).Contents (Elt F)),
    unary main_v11 main_v13 (broadcastInDim S512x64x1024x1 ![0, 1, 2] bcast_S512x64x1024_S512x64x1024x1_0_1_2 : (⟨S512x64x1024, .f32⟩ : BufTy).Contents (Elt F) → (⟨S512x64x1024x1, .f32⟩ : BufTy).Contents (Elt F)),
    binary main_v12 main_v13 main_v14 ((fun a b => concatenate S512x64x1024x2 3 [⟨S512x64x1024x1, a⟩, ⟨S512x64x1024x1, b⟩] concatenates_S512x64x1024x1_S512x64x1024x1_S512x64x1024x2_d3) : (⟨S512x64x1024x1, .f32⟩ : BufTy).Contents (Elt F) → (⟨S512x64x1024x1, .f32⟩ : BufTy).Contents (Elt F) → (⟨S512x64x1024x2, .f32⟩ : BufTy).Contents (Elt F)),
    nullary main_cst (constant S_ .f32 0x00000000#32),
    binary main_v14 main_cst main_v15 ((fun x v => Host.reduceAdd x v reducesTo_S512x64x1024x2_S512x64x1024_d3 h_S_) : (⟨S512x64x1024x2, .f32⟩ : BufTy).Contents (Elt F) → (⟨S_, .f32⟩ : BufTy).Contents (Elt F) → (⟨S512x64x1024, .f32⟩ : BufTy).Contents (Elt F)),
    unary main_v15 main_v16 ((transpose S512x1024x64 [0, 2, 1] · transposes_S512x64x1024_S512x1024x64_0_2_1) : (⟨S512x64x1024, .f32⟩ : BufTy).Contents (Elt F) → (⟨S512x1024x64, .f32⟩ : BufTy).Contents (Elt F)) ]

/-- The entry point is that straight line: sequencing computes, so with each called function's body unfolded at
    its call both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., nullary_bufs_sub .., binary_bufs_sub .., unary_bufs_sub .., unary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., unary_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., nullary_bufs_sub .., binary_bufs_sub .., unary_bufs_sub ..⟩

end Cert.Seasonal.Ref

end
-- ==== Proof.RefRun.lean ====
/-
  The reference program's run, read back window by window.

  The straight line of sixty-four operations is cut into five consecutive windows: the two constant tables and the
  hourly season table; its expansion along the time axis; the weekly season table; its expansion; the stacking, the
  sum and the exchange of axes. After each window the buffers the later windows read are named: a window's result is
  its operations' function of what the window found, and a buffer a window does not write passes through it. Chained,
  the result buffer ends at `out` of the five argument arrays, and no window writes an argument.
-/
import proofs.«113835_g9998683865523_cont_sun_m_317_17_alg».proof.Proof.RefOps
import proofs.«113835_g9998683865523_cont_sun_m_317_17_alg».proof.Proof.RefTerm
import Idealize.ShloMosaic.PureOps.Ideal

noncomputable section

namespace Cert.Seasonal.Ref

open Idealize.ShloMosaic Idealize.ShloMosaic.TcCoe Idealize.ShloMosaic.StableHlo Idealize.SL.Sem
open Cert.ReferenceIdeal Cert.ReferenceIdeal.Gen

variable {F : FTy → Type} [FloatOps F]

/-- Two lines run one after the other: the second from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Window A: operations 1 to 7. -/
abbrev partA : List (HloOp τ sig (Elt F)) :=
  [ nullary main_c hourIdx,
    nullary main_c_0 dayIdx,
    binary main_arg0 main_arg1 main_v0 ((fun l r => Host.dotGeneral dot_S512x64_S64x1536_S512x1536_1_0_0_1_n_n none l r) : (⟨S512x64, .f32⟩ : BufTy).Contents (Elt F) → (⟨S64x1536, .f32⟩ : BufTy).Contents (Elt F) → (⟨S512x1536, .f32⟩ : BufTy).Contents (Elt F)),
    unary main_arg2 main_v1 (broadcastInDim S1x1536 ![1] bcast_S1536_S1x1536_1 : (⟨S1536, .f32⟩ : BufTy).Contents (Elt F) → (⟨S1x1536, .f32⟩ : BufTy).Contents (Elt F)),
    unary main_v1 main_v2 (broadcastInDim S512x1536 ![0, 1] bcast_S1x1536_S512x1536_0_1 : (⟨S1x1536, .f32⟩ : BufTy).Contents (Elt F) → (⟨S512x1536, .f32⟩ : BufTy).Contents (Elt F)),
    binary main_v0 main_v2 main_v3 (addf : (⟨S512x1536, .f32⟩ : BufTy).Contents (Elt F) → (⟨S512x1536, .f32⟩ : BufTy).Contents (Elt F) → (⟨S512x1536, .f32⟩ : BufTy).Contents (Elt F)),
    reshape main_v3 main_v4 rfl shapeCasts_S512x1536_S512x64x24 ]

/-- The buffers window A writes. -/
abbrev partA_W : List (Ref sig .tc) := [main_c, main_c_0, main_v0, main_v1, main_v2, main_v3, main_v4]

theorem partA_writes : (partA : List (HloOp τ sig (Elt F))).Forall fun op => op.writes ⊆ (partA_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- Window B: operations 8 to 30. -/
abbrev partB : List (HloOp τ sig (Elt F)) :=
  [ nullary main_call0_c (constantI S_ 32 0#32),
    unary main_call0_c main_call0_v0 (broadcastInDim S1024 ![] bcast_S_S1024),
    binary main_c main_call0_v0 main_call0_v1 (cmpi .slt),
    nullary main_call0_c_0 (constantI S_ 32 24#32),
    unary main_call0_c_0 main_call0_v2 (broadcastInDim S1024 ![] bcast_S_S1024),
    binary main_c main_call0_v2 main_call0_v3 addi,
    ternary main_call0_v1 main_call0_v3 main_c main_call0_v4 select,
    unary main_call0_v4 main_call0_v5 (broadcastInDim S1024x1 ![0] bcast_S1024_S1024x1_0),
    nullary main_call0_c_1 (constantI S1 32 23#32),
    nullary main_call0_c_2 (constantI S_ 32 0#32),
    unary main_call0_c_2 main_call0_v6 (broadcastInDim S1024x1 ![] bcast_S_S1024x1),
    binary main_call0_v5 main_call0_v6 main_call0_v7 (cmpi .sge),
    unary main_call0_c_1 main_call0_v8 (broadcastInDim S1x1 ![1] bcast_S1_S1x1_1),
    unary main_call0_v8 main_call0_v9 (broadcastInDim S1024x1 ![0, 1] bcast_S1x1_S1024x1_0_1),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S1024x1_S1024_d1 h_S_),
    binary main_v4 main_call0_v5 main_call0_v13 (fun x i => Host.gather gather_S512x64x24_S1024x1_S512x64x1024_01_2_n_n_2_1_512641 x i),
    unary main_call0_v12 main_call0_v14 (broadcastInDim S512x64x1024 ![2] bcast_S1024_S512x64x1024_2),
    nullary main_call0_cst (constant S_ .f32 0x7FC00000#32),
    unary main_call0_cst main_call0_v15 (broadcastInDim S512x64x1024 ![] bcast_S_S512x64x1024),
    ternary main_call0_v14 main_call0_v13 main_call0_v15 main_v5 select ]

/-- The buffers window B writes. -/
abbrev partB_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]

theorem partB_writes : (partB : List (HloOp τ sig (Elt F))).Forall fun op => op.writes ⊆ (partB_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- Window C: operations 31 to 35. -/
abbrev partC : List (HloOp τ sig (Elt F)) :=
  [ binary main_arg0 main_arg3 main_v6 ((fun l r => Host.dotGeneral dot_S512x64_S64x448_S512x448_1_0_0_1_n_n none l r) : (⟨S512x64, .f32⟩ : BufTy).Contents (Elt F) → (⟨S64x448, .f32⟩ : BufTy).Contents (Elt F) → (⟨S512x448, .f32⟩ : BufTy).Contents (Elt F)),
    unary main_arg4 main_v7 (broadcastInDim S1x448 ![1] bcast_S448_S1x448_1 : (⟨S448, .f32⟩ : BufTy).Contents (Elt F) → (⟨S1x448, .f32⟩ : BufTy).Contents (Elt F)),
    unary main_v7 main_v8 (broadcastInDim S512x448 ![0, 1] bcast_S1x448_S512x448_0_1 : (⟨S1x448, .f32⟩ : BufTy).Contents (Elt F) → (⟨S512x448, .f32⟩ : BufTy).Contents (Elt F)),
    binary main_v6 main_v8 main_v9 (addf : (⟨S512x448, .f32⟩ : BufTy).Contents (Elt F) → (⟨S512x448, .f32⟩ : BufTy).Contents (Elt F) → (⟨S512x448, .f32⟩ : BufTy).Contents (Elt F)),
    reshape main_v9 main_v10 rfl shapeCasts_S512x448_S512x64x7 ]

/-- The buffers window C writes. -/
abbrev partC_W : List (Ref sig .tc) := [main_v6, main_v7, main_v8, main_v9, main_v10]

theorem partC_writes : (partC : List (HloOp τ sig (Elt F))).Forall fun op => op.writes ⊆ (partC_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- Window D: operations 36 to 58. -/
abbrev partD : List (HloOp τ sig (Elt F)) :=
  [ nullary main_call1_c (constantI S_ 32 0#32),
    unary main_call1_c main_call1_v0 (broadcastInDim S1024 ![] bcast_S_S1024),
    binary main_c_0 main_call1_v0 main_call1_v1 (cmpi .slt),
    nullary main_call1_c_0 (constantI S_ 32 7#32),
    unary main_call1_c_0 main_call1_v2 (broadcastInDim S1024 ![] bcast_S_S1024),
    binary main_c_0 main_call1_v2 main_call1_v3 addi,
    ternary main_call1_v1 main_call1_v3 main_c_0 main_call1_v4 select,
    unary main_call1_v4 main_call1_v5 (broadcastInDim S1024x1 ![0] bcast_S1024_S1024x1_0),
    nullary main_call1_c_1 (constantI S1 32 6#32),
    nullary main_call1_c_2 (constantI S_ 32 0#32),
    unary main_call1_c_2 main_call1_v6 (broadcastInDim S1024x1 ![] bcast_S_S1024x1),
    binary main_call1_v5 main_call1_v6 main_call1_v7 (cmpi .sge),
    unary main_call1_c_1 main_call1_v8 (broadcastInDim S1x1 ![1] bcast_S1_S1x1_1),
    unary main_call1_v8 main_call1_v9 (broadcastInDim S1024x1 ![0, 1] bcast_S1x1_S1024x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S1024x1_S1024_d1 h_S_),
    binary main_v10 main_call1_v5 main_call1_v13 (fun x i => Host.gather gather_S512x64x7_S1024x1_S512x64x1024_01_2_n_n_2_1_512641 x i),
    unary main_call1_v12 main_call1_v14 (broadcastInDim S512x64x1024 ![2] bcast_S1024_S512x64x1024_2),
    nullary main_call1_cst (constant S_ .f32 0x7FC00000#32),
    unary main_call1_cst main_call1_v15 (broadcastInDim S512x64x1024 ![] bcast_S_S512x64x1024),
    ternary main_call1_v14 main_call1_v13 main_call1_v15 main_v11 select ]

/-- The buffers window D writes. -/
abbrev partD_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v11]

theorem partD_writes : (partD : List (HloOp τ sig (Elt F))).Forall fun op => op.writes ⊆ (partD_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- Window E: operations 59 to 64. -/
abbrev partE : List (HloOp τ sig (Elt F)) :=
  [ unary main_v5 main_v12 (broadcastInDim S512x64x1024x1 ![0, 1, 2] bcast_S512x64x1024_S512x64x1024x1_0_1_2 : (⟨S512x64x1024, .f32⟩ : BufTy).Contents (Elt F) → (⟨S512x64x1024x1, .f32⟩ : BufTy).Contents (Elt F)),
    unary main_v11 main_v13 (broadcastInDim S512x64x1024x1 ![0, 1, 2] bcast_S512x64x1024_S512x64x1024x1_0_1_2 : (⟨S512x64x1024, .f32⟩ : BufTy).Contents (Elt F) → (⟨S512x64x1024x1, .f32⟩ : BufTy).Contents (Elt F)),
    binary main_v12 main_v13 main_v14 ((fun a b => concatenate S512x64x1024x2 3 [⟨S512x64x1024x1, a⟩, ⟨S512x64x1024x1, b⟩] concatenates_S512x64x1024x1_S512x64x1024x1_S512x64x1024x2_d3) : (⟨S512x64x1024x1, .f32⟩ : BufTy).Contents (Elt F) → (⟨S512x64x1024x1, .f32⟩ : BufTy).Contents (Elt F) → (⟨S512x64x1024x2, .f32⟩ : BufTy).Contents (Elt F)),
    nullary main_cst (constant S_ .f32 0x00000000#32),
    binary main_v14 main_cst main_v15 ((fun x v => Host.reduceAdd x v reducesTo_S512x64x1024x2_S512x64x1024_d3 h_S_) : (⟨S512x64x1024x2, .f32⟩ : BufTy).Contents (Elt F) → (⟨S_, .f32⟩ : BufTy).Contents (Elt F) → (⟨S512x64x1024, .f32⟩ : BufTy).Contents (Elt F)),
    unary main_v15 main_v16 ((transpose S512x1024x64 [0, 2, 1] · transposes_S512x64x1024_S512x1024x64_0_2_1) : (⟨S512x64x1024, .f32⟩ : BufTy).Contents (Elt F) → (⟨S512x1024x64, .f32⟩ : BufTy).Contents (Elt F)) ]

/-- The buffers window E writes. -/
abbrev partE_W : List (Ref sig .tc) := [main_v12, main_v13, main_v14, main_cst, main_v15, main_v16]

theorem partE_writes : (partE : List (HloOp τ sig (Elt F))).Forall fun op => op.writes ⊆ (partE_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩

/-- The whole line is the five windows end to end. -/
theorem ops_eq : (ops : List (HloOp τ sig (Elt F))) = partA ++ (partB ++ (partC ++ (partD ++ partE))) := rfl

variable (V0 : Valuation τ sig (Elt F))

/-- The buffers' contents after the first `k` windows. -/
def val1 : Valuation τ sig (Elt F) := after partA V0
def val2 : Valuation τ sig (Elt F) := after partB (val1 V0)
def val3 : Valuation τ sig (Elt F) := after partC (val2 V0)
def val4 : Valuation τ sig (Elt F) := after partD (val3 V0)
def val5 : Valuation τ sig (Elt F) := after partE (val4 V0)

theorem after_ops : after ops V0 = val5 V0 := by
  rw [ops_eq, after_append, after_append, after_append, after_append]
  rfl

theorem val1_keep (r : Ref sig .tc) (h : r ∉ partA_W) : val1 V0 (Proc.devRef .tc r) = V0 (Proc.devRef .tc r) :=
  after_of_writes_sub partA _ partA_writes h
theorem val2_keep (r : Ref sig .tc) (h : r ∉ partB_W) : val2 V0 (Proc.devRef .tc r) = val1 V0 (Proc.devRef .tc r) :=
  after_of_writes_sub partB _ partB_writes h
theorem val3_keep (r : Ref sig .tc) (h : r ∉ partC_W) : val3 V0 (Proc.devRef .tc r) = val2 V0 (Proc.devRef .tc r) :=
  after_of_writes_sub partC _ partC_writes h
theorem val4_keep (r : Ref sig .tc) (h : r ∉ partD_W) : val4 V0 (Proc.devRef .tc r) = val3 V0 (Proc.devRef .tc r) :=
  after_of_writes_sub partD _ partD_writes h
theorem val5_keep (r : Ref sig .tc) (h : r ∉ partE_W) : val5 V0 (Proc.devRef .tc r) = val4 V0 (Proc.devRef .tc r) :=
  after_of_writes_sub partE _ partE_writes h

/-- A buffer no window writes ends as it started. -/
theorem keep_all (r : Ref sig .tc) (hA : r ∉ partA_W) (hB : r ∉ partB_W) (hC : r ∉ partC_W) (hD : r ∉ partD_W) (hE : r ∉ partE_W) :
    after ops V0 (Proc.devRef .tc r) = V0 (Proc.devRef .tc r) := by
  rw [after_ops, val5_keep V0 r hE, val4_keep V0 r hD, val3_keep V0 r hC, val2_keep V0 r hB, val1_keep V0 r hA]

/-! ## After window A: the constant tables and the hourly season table -/

theorem val1_main_c : val1 V0 (no_index (Proc.devRef .tc main_c)) = hourIdx := by
  unfold val1; simp only [partA]; after_results_simp
theorem val1_main_c_0 : val1 V0 (no_index (Proc.devRef .tc main_c_0)) = dayIdx := by
  unfold val1; simp only [partA]; after_results_simp
set_option maxHeartbeats 800000 in
theorem val1_main_v4 : val1 V0 (no_index (Proc.devRef .tc main_v4))
    = table24 (V0 (Proc.devRef .tc main_arg0)) (V0 (Proc.devRef .tc main_arg1)) (V0 (Proc.devRef .tc main_arg2)) := by
  unfold val1; simp only [partA]; after_results_simp; rfl

/-! ## After window B: the hourly table expanded over the time axis -/

set_option maxHeartbeats 2000000 in
theorem val2_main_v5 : val2 V0 (no_index (Proc.devRef .tc main_v5))
    = take24 (table24 (V0 (Proc.devRef .tc main_arg0)) (V0 (Proc.devRef .tc main_arg1)) (V0 (Proc.devRef .tc main_arg2))) hourIdx := by
  unfold val2; simp only [partB]; after_results_simp
  simp only [val1_main_v4, val1_main_c] <;> rfl
theorem val2_main_c_0 : val2 V0 (no_index (Proc.devRef .tc main_c_0)) = dayIdx :=
  (val2_keep V0 main_c_0 (by decide)).trans (val1_main_c_0 V0)
theorem val2_arg (r : Ref sig .tc) (hA : r ∉ partA_W) (hB : r ∉ partB_W) : val2 V0 (Proc.devRef .tc r) = V0 (Proc.devRef .tc r) :=
  (val2_keep V0 r hB).trans (val1_keep V0 r hA)

/-! ## After window C: the weekly season table -/

set_option maxHeartbeats 800000 in
theorem val3_main_v10 : val3 V0 (no_index (Proc.devRef .tc main_v10))
    = table7 (V0 (Proc.devRef .tc main_arg0)) (V0 (Proc.devRef .tc main_arg3)) (V0 (Proc.devRef .tc main_arg4)) := by
  unfold val3; simp only [partC]; after_results_simp
  simp only [val2_arg V0 main_arg0 (by decide) (by decide), val2_arg V0 main_arg3 (by decide) (by decide),
    val2_arg V0 main_arg4 (by decide) (by decide)] <;> rfl
theorem val3_main_c_0 : val3 V0 (no_index (Proc.devRef .tc main_c_0)) = dayIdx :=
  (val3_keep V0 main_c_0 (by decide)).trans (val2_main_c_0 V0)
theorem val3_main_v5 : val3 V0 (no_index (Proc.devRef .tc main_v5))
    = take24 (table24 (V0 (Proc.devRef .tc main_arg0)) (V0 (Proc.devRef .tc main_arg1)) (V0 (Proc.devRef .tc main_arg2))) hourIdx :=
  (val3_keep V0 main_v5 (by decide)).trans (val2_main_v5 V0)

/-! ## After window D: the weekly table expanded over the time axis -/

set_option maxHeartbeats 2000000 in
theorem val4_main_v11 : val4 V0 (no_index (Proc.devRef .tc main_v11))
    = take7 (table7 (V0 (Proc.devRef .tc main_arg0)) (V0 (Proc.devRef .tc main_arg3)) (V0 (Proc.devRef .tc main_arg4))) dayIdx := by
  unfold val4; simp only [partD]; after_results_simp
  simp only [val3_main_v10, val3_main_c_0] <;> rfl
theorem val4_main_v5 : val4 V0 (no_index (Proc.devRef .tc main_v5))
    = take24 (table24 (V0 (Proc.devRef .tc main_arg0)) (V0 (Proc.devRef .tc main_arg1)) (V0 (Proc.devRef .tc main_arg2))) hourIdx :=
  (val4_keep V0 main_v5 (by decide)).trans (val3_main_v5 V0)

/-! ## After window E: the result -/

set_option maxHeartbeats 800000 in
theorem val5_main_v16 : val5 V0 (no_index (Proc.devRef .tc main_v16))
    = out (V0 (Proc.devRef .tc main_arg0)) (V0 (Proc.devRef .tc main_arg1)) (V0 (Proc.devRef .tc main_arg2))
        (V0 (Proc.devRef .tc main_arg3)) (V0 (Proc.devRef .tc main_arg4)) := by
  unfold val5; simp only [partE]; after_results
  rw [val4_main_v5, val4_main_v11]
  rfl

/-- The result buffer after the whole line. -/
theorem out_eq : after ops V0 (Proc.devRef .tc main_v16)
    = out (V0 (Proc.devRef .tc main_arg0)) (V0 (Proc.devRef .tc main_arg1)) (V0 (Proc.devRef .tc main_arg2))
        (V0 (Proc.devRef .tc main_arg3)) (V0 (Proc.devRef .tc main_arg4)) := by
  rw [after_ops]; exact val5_main_v16 V0

/-- THE RUN: every weakly fair execution of the reference terminates; its result buffer ends at `out` of the five
    argument arrays, and each argument array ends as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c main_v16).trans (out_eq (F := Ideal) _),
      (h c main_arg0).trans (keep_all (F := Ideal) _ main_arg0 (by decide) (by decide) (by decide) (by decide) (by decide)),
      (h c main_arg1).trans (keep_all (F := Ideal) _ main_arg1 (by decide) (by decide) (by decide) (by decide) (by decide)),
      (h c main_arg2).trans (keep_all (F := Ideal) _ main_arg2 (by decide) (by decide) (by decide) (by decide) (by decide)),
      (h c main_arg3).trans (keep_all (F := Ideal) _ main_arg3 (by decide) (by decide) (by decide) (by decide) (by decide)),
      (h c main_arg4).trans (keep_all (F := Ideal) _ main_arg4 (by decide) (by decide) (by decide) (by decide) (by decide))⟩)
    (run_seq scopedRefs_eq scopedSems_eq defs main (fun _ => ops) main_eq (fun _ => ops_sub) m ρ)

end Cert.Seasonal.Ref

end
-- ==== Proof.LibTakeLastAxis.lean ====
/-
  `jnp.take(x, idx, axis=2)` of a rank-3 array read at an index.

  What `jnp.take` along the last axis of `x : [R, C, N]` at an index vector of length `T` lowers to is a
  `stablehlo.gather` with offset axes `[0, 1]`, the last operand axis collapsed and named by the start index map,
  slice sizes `[R, C, 1]`, over the indices as `[T, 1]`. Its element `(r, c, t)` is `x[r, c, s]` with `s` the start
  index `idx[t, 0]` read as a signed integer and clamped into `[0, N - 1]`, as StableHLO's gather clamps every
  start index.
-/
import Idealize.ShloMosaic.Lib.ValueIdx

noncomputable section

namespace Idealize.ShloMosaic.ValueIdx

section TakeLastAxis
variable {α : Type}

/-- Those dimension numbers for an operand `[R, C, N]`, start indices `[T, 1]` and result `[R, C, T]`; their
    conditions `wf` are decided on a program's literal shapes. -/
abbrev takeLastDims (R C N T : Nat)
    (wf : GatherDims.WF ⟨3, ![R, C, N]⟩ ⟨2, ![T, 1]⟩ ⟨3, ![R, C, T]⟩ [0, 1] [2] [] [2] [] 1 ![R, C, 1]) :
    GatherDims ⟨3, ![R, C, N]⟩ ⟨2, ![T, 1]⟩ ⟨3, ![R, C, T]⟩ where
  offsetDims := [0, 1]
  collapsedSliceDims := [2]
  operandBatchingDims := []
  startIndicesBatchingDims := []
  startIndexMap := [2]
  indexVectorDim := 1
  sliceSizes := ![R, C, 1]
  wf := wf

/-- THE GATHER READ AT `(r, c, t)`: the operand at `(r, c, s)`, `s` the start index `idx[t, 0]` read signed and
    clamped into `[0, N - 1]`. -/
theorem gather_takeLast_apply {R C N T w : Nat} (hN : 0 < N)
    (wf : GatherDims.WF ⟨3, ![R, C, N]⟩ ⟨2, ![T, 1]⟩ ⟨3, ![R, C, T]⟩ [0, 1] [2] [] [2] [] 1 ![R, C, 1])
    (x : (⟨3, ![R, C, N]⟩ : Shape).Idx → α) (idx : IVec ⟨2, ![T, 1]⟩ w) (r : Fin R) (c : Fin C) (t : Fin T) :
    Host.gather (takeLastDims R C N T wf) x idx (ix3 r c t)
      = x (ix3 r c ⟨min (idx (ix2 t ⟨0, Nat.one_pos⟩)).toInt.toNat (N - 1), by omega⟩) := by
  unfold Host.gather
  congr 1
  funext a
  refine Fin.ext ?_
  show (takeLastDims R C N T wf).start (ix3 r c t) idx a + (takeLastDims R C N T wf).batchCoord (ix3 r c t) a
    + (takeLastDims R C N T wf).offCoord (ix3 r c t) a = _
  rw [GatherDims.batchCoord_eq_zero _ _ _ List.not_mem_nil]
  have hk : (takeLastDims R C N T wf).sKept = ([0, 1] : List (Fin 3)) :=
    (by decide : (List.finRange 3).filter (fun a : Fin 3 => a ∉ ([2] ++ [] : List (Fin 3))) = [0, 1])
  have k0 : (takeLastDims R C N T wf).start (ix3 r c t) idx (0 : Fin 3) + 0
      + (takeLastDims R C N T wf).offCoord (ix3 r c t) (0 : Fin 3) = r.val := by
    unfold GatherDims.start
    rw [dif_neg (show (0 : Fin 3) ∉ ([2] : List (Fin 3)) by decide)]
    unfold GatherDims.offCoord
    rw [dif_pos ((GatherDims.mem_sKept (takeLastDims R C N T wf) (0 : Fin 3)).mpr ⟨show (0 : Fin 3) ∉ ([2] : List (Fin 3)) by decide, List.not_mem_nil⟩)]
    have hi : List.idxOf (0 : Fin 3) (takeLastDims R C N T wf).sKept = 0 := by rw [hk]; rfl
    rw [getElem_congr_idx hi, Nat.add_zero, Nat.zero_add]
    rfl
  have k1 : (takeLastDims R C N T wf).start (ix3 r c t) idx (1 : Fin 3) + 0
      + (takeLastDims R C N T wf).offCoord (ix3 r c t) (1 : Fin 3) = c.val := by
    unfold GatherDims.start
    rw [dif_neg (show (1 : Fin 3) ∉ ([2] : List (Fin 3)) by decide)]
    unfold GatherDims.offCoord
    rw [dif_pos ((GatherDims.mem_sKept (takeLastDims R C N T wf) (1 : Fin 3)).mpr ⟨show (1 : Fin 3) ∉ ([2] : List (Fin 3)) by decide, List.not_mem_nil⟩)]
    have hi : List.idxOf (1 : Fin 3) (takeLastDims R C N T wf).sKept = 1 := by rw [hk]; rfl
    rw [getElem_congr_idx hi, Nat.add_zero, Nat.zero_add]
    rfl
  have k2 : (takeLastDims R C N T wf).start (ix3 r c t) idx (2 : Fin 3) + 0
      + (takeLastDims R C N T wf).offCoord (ix3 r c t) (2 : Fin 3)
      = min (idx (ix2 t ⟨0, Nat.one_pos⟩)).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ (takeLastDims R C N T wf).startIndexMap from List.mem_singleton.mpr rfl)]
    have hsi : (takeLastDims R C N T wf).siIdx (ix3 r c t) ⟨List.idxOf (2 : Fin 3) (takeLastDims R C N T wf).startIndexMap,
        List.idxOf_lt_length_iff.2 (List.mem_singleton.mpr rfl)⟩ = ix2 t ⟨0, Nat.one_pos⟩ := by
      funext b; refine Fin.ext ?_
      match b with
      | ⟨0, _⟩ => rfl
      | ⟨1, _⟩ => rfl
    rw [hsi]
    rfl
  match a with
  | ⟨0, _⟩ => exact k0
  | ⟨1, _⟩ => exact k1
  | ⟨2, _⟩ => exact k2

end TakeLastAxis

end Idealize.ShloMosaic.ValueIdx

end
-- ==== Proof.RefTake.lean ====
/-
  The reference's two `jnp.take`s read at an index.

  The constant tables hold, at time step `t`, the hour number `t % 24` and the day number `(t / 24) % 7` (checked
  entry by entry). Such an index is never negative, so it is not wrapped; it lies inside `[0, seasons - 1]`, so the
  out-of-range mask is 1 and no NaN is put; and the gather's clamp leaves it alone. Hence
  `take24 x hourIdx` at `(n, f, t)` is `x[n, f, t % 24]` and `take7 x dayIdx` at `(n, f, t)` is `x[n, f, (t / 24) % 7]`.
-/
import proofs.«113835_g9998683865523_cont_sun_m_317_17_alg».proof.Proof.RefTerm
import proofs.«113835_g9998683865523_cont_sun_m_317_17_alg».proof.Proof.LibTakeLastAxis
import Idealize.ShloMosaic.Lib.ValueIdx
import Idealize.ShloMosaic.Lib.ValueLayout
import Idealize.ShloMosaic.Lib.IdealHost
import Idealize.ShloMosaic.Lib.Pipeline.Value
import Idealize.ShloMosaic.PureOps.Reduce

noncomputable section

namespace Cert.Seasonal.Ref

open Idealize.ShloMosaic Idealize.ShloMosaic.ValueIdx Cert.ReferenceIdeal Cert.ReferenceIdeal.Gen

variable {F : FTy → Type} [FloatOps F]

/-! ## The two constant tables -/

/-- Entry `t` of the first table is `t % 24`. -/
theorem lit0_eq : ∀ t : Fin 1024, lit0 t = BitVec.ofNat 32 (t.val % 24) := by decide +kernel

/-- Entry `t` of the second table is `(t / 24) % 7`. -/
theorem lit1_eq : ∀ t : Fin 1024, lit1 t = BitVec.ofNat 32 (t.val / 24 % 7) := by decide +kernel

theorem hourIdx_apply (t : Fin 1024) : hourIdx (ix1 t) = BitVec.ofNat 32 (t.val % 24) := by
  unfold hourIdx
  have e : S1024.rowMajor (ix1 t) = t := Fin.ext (Shape.rowMajor_val_one _)
  rw [e, lit0_eq]

theorem dayIdx_apply (t : Fin 1024) : dayIdx (ix1 t) = BitVec.ofNat 32 (t.val / 24 % 7) := by
  unfold dayIdx
  have e : S1024.rowMajor (ix1 t) = t := Fin.ext (Shape.rowMajor_val_one _)
  rw [e, lit1_eq]

/-! ## Words below 24: not negative, inside the bounds, their own clamp -/

theorem small_not_neg : ∀ k : Fin 24, IntOp.cmpi .slt (BitVec.ofNat 32 k.val) 0#32 = 0#1 := by decide

theorem small_in_23 : ∀ k : Fin 24,
    IntOp.andi (IntOp.cmpi .sge (BitVec.ofNat 32 k.val) 0#32) (IntOp.cmpi .sle (BitVec.ofNat 32 k.val) 23#32) = 1#1 := by
  decide

theorem small_in_6 : ∀ k : Fin 7,
    IntOp.andi (IntOp.cmpi .sge (BitVec.ofNat 32 k.val) 0#32) (IntOp.cmpi .sle (BitVec.ofNat 32 k.val) 6#32) = 1#1 := by
  decide

theorem small_toNat : ∀ k : Fin 24, (BitVec.ofNat 32 k.val).toInt.toNat = k.val := by decide

/-! ## The index pipeline at a time step -/

/-- An index below 24 is not wrapped. -/
theorem wrapped_apply (n : BitVec 32) (idx : IVec S1024 32) (t : Fin 1024) (k : Fin 24)
    (h : idx (ix1 t) = BitVec.ofNat 32 k.val) : wrapped n idx (ix1 t) = BitVec.ofNat 32 k.val := by
  unfold wrapped
  show Scalar.select (IntOp.cmpi .slt (idx (ix1 t))
      (broadcastInDim S1024 ![] bcast_S_S1024 (constantI S_ 32 0#32) (ix1 t))) _ (idx (ix1 t)) = _
  rw [broadcastInDim_scalar_apply, constantI_apply, h, small_not_neg k, select_zero]

/-- The start indices `[1024, 1]` at `(t, 0)` are the wrapped indices at `t`. -/
theorem startIdx_apply (n : BitVec 32) (idx : IVec S1024 32) (t : Fin 1024) :
    startIdx n idx (ix2 t (⟨0, Nat.one_pos⟩ : Fin 1)) = wrapped n idx (ix1 t) := by
  unfold startIdx
  exact broadcastInDim_apply _ _ _ _ (ix1 t) fun a => match a with | ⟨0, _⟩ => rfl

/-- The bounds mask at `t` is 1 when the start index at `(t, 0)` passes both comparisons: the reduction by `and` over
    the unit axis reads that one entry. -/
theorem inBounds_apply (hi : BitVec 32) (s : IVec S1024x1 32) (t : Fin 1024)
    (h : IntOp.andi (IntOp.cmpi .sge (s (ix2 t (⟨0, Nat.one_pos⟩ : Fin 1))) 0#32)
      (IntOp.cmpi .sle (s (ix2 t (⟨0, Nat.one_pos⟩ : Fin 1))) hi) = 1#1) :
    inBounds hi s (ix1 t) = 1#1 := by
  unfold inBounds
  rw [Host.reduce_eq_fold_single IntOp.andi _ _ reducesTo_S1024x1_S1024_d1
    (by decide : S1024x1.Reduces [1] S1024) h_S_ (ix1 t)]
  have hu : (Finset.univ : Finset (Fin (S1024x1.size 1))) = {⟨0, Nat.one_pos⟩} := by decide
  rw [hu, Finset.fold_singleton]
  have hl : (by decide : S1024x1.Reduces [1] S1024).lift (ix1 t) (⟨0, Nat.one_pos⟩ : Fin (S1024x1.size 1))
      = ix2 t (⟨0, Nat.one_pos⟩ : Fin 1) := by
    funext a; refine Fin.ext ?_
    match a with
    | ⟨0, _⟩ => rfl
    | ⟨1, _⟩ => rfl
  show IntOp.andi (IntOp.andi (IntOp.cmpi .sge (s _) (broadcastInDim S1024x1 ![] bcast_S_S1024x1 (constantI S_ 32 0#32) _))
      (IntOp.cmpi .sle (s _) (broadcastInDim S1024x1 ![0, 1] bcast_S1x1_S1024x1_0_1
        (broadcastInDim S1x1 ![1] bcast_S1_S1x1_1 (constantI S1 32 hi)) _))) (constantI S_ 1 1#1 _) = 1#1
  rw [hl, broadcastInDim_scalar_apply, constantI_apply, constantI_apply,
    broadcastInDim_apply _ _ _ _ (ix2 (⟨0, Nat.one_pos⟩ : Fin 1) (⟨0, Nat.one_pos⟩ : Fin 1))
      (fun a => match a with | ⟨0, _⟩ => rfl | ⟨1, _⟩ => rfl),
    broadcastInDim_apply _ _ _ _ (ix1 (⟨0, Nat.one_pos⟩ : Fin 1)) (fun a => match a with | ⟨0, _⟩ => rfl),
    constantI_apply, h]
  rfl

/-! ## `jnp.take` at an index -/

/-- The hourly table expanded over the time axis: at `(n, f, t)` it is the table at `(n, f, t % 24)`. -/
theorem take24_apply (x : FVec F S512x64x24 .f32) (n : Fin 512) (f : Fin 64) (t : Fin 1024) :
    take24 x hourIdx (ix3 n f t) = x (ix3 n f ⟨t.val % 24, Nat.mod_lt _ (by decide)⟩) := by
  have hw : wrapped 24#32 hourIdx (ix1 t) = BitVec.ofNat 32 (t.val % 24) :=
    wrapped_apply 24#32 hourIdx t ⟨t.val % 24, Nat.mod_lt _ (by decide)⟩ (hourIdx_apply t)
  have hs : startIdx 24#32 hourIdx (ix2 t (⟨0, Nat.one_pos⟩ : Fin 1)) = BitVec.ofNat 32 (t.val % 24) :=
    (startIdx_apply _ _ t).trans hw
  unfold take24
  show Scalar.select (broadcastInDim S512x64x1024 ![2] bcast_S1024_S512x64x1024_2 (inBounds 23#32 (startIdx 24#32 hourIdx)) (ix3 n f t))
    (Host.gather gather_S512x64x24_S1024x1_S512x64x1024_01_2_n_n_2_1_512641 x (startIdx 24#32 hourIdx) (ix3 n f t)) _ = _
  rw [broadcastInDim_apply _ _ _ _ (ix1 t) (fun a => match a with | ⟨0, _⟩ => rfl),
    inBounds_apply 23#32 _ t (by rw [hs]; exact small_in_23 ⟨t.val % 24, Nat.mod_lt _ (by decide)⟩), select_one]
  refine (gather_takeLast_apply (N := 24) (by decide) gather_S512x64x24_S1024x1_S512x64x1024_01_2_n_n_2_1_512641_wf
    x (startIdx 24#32 hourIdx) n f t).trans ?_
  refine congrArg x (congrArg (ix3 n f) (Fin.ext ?_))
  show min (startIdx 24#32 hourIdx (ix2 t ⟨0, Nat.one_pos⟩)).toInt.toNat (24 - 1) = t.val % 24
  rw [hs, small_toNat ⟨t.val % 24, Nat.mod_lt _ (by decide)⟩]
  show min (t.val % 24) (24 - 1) = t.val % 24
  have := Nat.mod_lt t.val (by decide : 0 < 24)
  omega

/-- The weekly table expanded over the time axis: at `(n, f, t)` it is the table at `(n, f, (t / 24) % 7)`. -/
theorem take7_apply (x : FVec F S512x64x7 .f32) (n : Fin 512) (f : Fin 64) (t : Fin 1024) :
    take7 x dayIdx (ix3 n f t) = x (ix3 n f ⟨t.val / 24 % 7, Nat.mod_lt _ (by decide)⟩) := by
  have h7 : t.val / 24 % 7 < 7 := Nat.mod_lt _ (by decide)
  have hw : wrapped 7#32 dayIdx (ix1 t) = BitVec.ofNat 32 (t.val / 24 % 7) :=
    wrapped_apply 7#32 dayIdx t ⟨t.val / 24 % 7, by omega⟩ (dayIdx_apply t)
  have hs : startIdx 7#32 dayIdx (ix2 t (⟨0, Nat.one_pos⟩ : Fin 1)) = BitVec.ofNat 32 (t.val / 24 % 7) :=
    (startIdx_apply _ _ t).trans hw
  unfold take7
  show Scalar.select (broadcastInDim S512x64x1024 ![2] bcast_S1024_S512x64x1024_2 (inBounds 6#32 (startIdx 7#32 dayIdx)) (ix3 n f t))
    (Host.gather gather_S512x64x7_S1024x1_S512x64x1024_01_2_n_n_2_1_512641 x (startIdx 7#32 dayIdx) (ix3 n f t)) _ = _
  rw [broadcastInDim_apply _ _ _ _ (ix1 t) (fun a => match a with | ⟨0, _⟩ => rfl),
    inBounds_apply 6#32 _ t (by rw [hs]; exact small_in_6 ⟨t.val / 24 % 7, h7⟩), select_one]
  refine (gather_takeLast_apply (N := 7) (by decide) gather_S512x64x7_S1024x1_S512x64x1024_01_2_n_n_2_1_512641_wf
    x (startIdx 7#32 dayIdx) n f t).trans ?_
  refine congrArg x (congrArg (ix3 n f) (Fin.ext ?_))
  show min (startIdx 7#32 dayIdx (ix2 t ⟨0, Nat.one_pos⟩)).toInt.toNat (7 - 1) = t.val / 24 % 7
  rw [hs, small_toNat ⟨t.val / 24 % 7, by omega⟩]
  show min (t.val / 24 % 7) (7 - 1) = t.val / 24 % 7
  omega

end Cert.Seasonal.Ref

end
-- ==== Proof.LibHostMatmul.lean ====
/-
  The host's plain matrix product read at an index, at the extended reals: `[m, k] × [k, n]` as a `dot_general`
  contracting the left operand's columns against the right operand's rows is, at `(i, j)`, the sum over the
  contracted coordinate of the products of the entries (no accumulator, no rounding, no order).
-/
import Idealize.ShloMosaic.Lib.ValueIdx
import Idealize.ShloMosaic.PureOps.Ideal.Laws

noncomputable section

open scoped BigOperators

namespace Cert.HostMatmul

open Idealize.ShloMosaic Idealize.ShloMosaic.ValueIdx

/-- `[m, k] × [k, n]` on the host, at `(i, j)`: `∑ c, A[i, c] · B[c, j]`. -/
theorem dotGeneral_plain_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    Host.dotGeneral (DotDims.plain m k n) prec A B (ix2 i j) = ∑ c : Fin k, A (ix2 i c) * B (ix2 c j) := by
  show FloatOps.dotGeneral _ prec _ A B (ix2 i j) = _
  rw [Ideal.dotGeneral_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.HostMatmul

end
-- ==== Proof.RefValue.lean ====
/-
  The reference's result is the seasonal layer `G`, index by index, on the extended reals.

  Each season table at `(n, f, s)` is the affine map's entry at column `f · seasons + s` (the matrix product as a sum
  over the 64 latent coordinates, the bias row broadcast, the re-laying row-major). The two expanded tables stacked
  on a unit last axis and summed over it from 0 are their entrywise sum (`0 + x = x`). Exchanging the last two axes
  reads entry `(n, t, f)` at `(n, f, t)`. With the two `jnp.take`s read at an index this is `G`.
-/
import proofs.«113835_g9998683865523_cont_sun_m_317_17_alg».proof.Proof.Spec
import proofs.«113835_g9998683865523_cont_sun_m_317_17_alg».proof.Proof.RefTake
import proofs.«113835_g9998683865523_cont_sun_m_317_17_alg».proof.Proof.LibHostMatmul
import Idealize.ShloMosaic.Lib.ValueLayout
import Idealize.ShloMosaic.Lib.IdealHost
import Idealize.ShloMosaic.PureOps.Ideal.Laws

noncomputable section

open scoped BigOperators

namespace Cert.Seasonal.Ref

open Idealize.ShloMosaic Idealize.ShloMosaic.ValueIdx Cert.ReferenceIdeal Cert.ReferenceIdeal.Gen

/-- The hourly table at `(n, f, s)`: the affine map's entry at column `f · 24 + s`. -/
theorem table24_apply (z : FVec Ideal S512x64 .f32) (W0 : FVec Ideal S64x1536 .f32) (b0 : FVec Ideal S1536 .f32)
    (n : Fin 512) (f : Fin 64) (s : Fin 24) :
    table24 (F := Ideal) z W0 b0 (ix3 n f s) = Cert.Seasonal.affine z W0 b0 n ⟨f.val * 24 + s.val, by omega⟩ := by
  unfold table24
  refine (shapeCast_apply _ _ (ix3 n f s) (ix2 n (⟨f.val * 24 + s.val, by omega⟩ : Fin 1536)) ?_).trans ?_
  · rw [Shape.rowMajor_val_two, Shape.rowMajor_val_three]
    show n.val * 1536 + (f.val * 24 + s.val) = (n.val * 64 + f.val) * 24 + s.val
    omega
  · rw [addf_apply,
      broadcastInDim_apply _ _ _ _ (ix2 (⟨0, Nat.one_pos⟩ : Fin 1) (⟨f.val * 24 + s.val, by omega⟩ : Fin 1536))
        (fun a => match a with | ⟨0, _⟩ => rfl | ⟨1, _⟩ => rfl),
      broadcastInDim_apply _ _ _ _ (ix1 (⟨f.val * 24 + s.val, by omega⟩ : Fin 1536))
        (fun a => match a with | ⟨0, _⟩ => rfl)]
    unfold Cert.Seasonal.affine
    exact congrArg (· + _) (Cert.HostMatmul.dotGeneral_plain_apply none z W0 n ⟨f.val * 24 + s.val, by omega⟩)

/-- The weekly table at `(n, f, d)`: the affine map's entry at column `f · 7 + d`. -/
theorem table7_apply (z : FVec Ideal S512x64 .f32) (W1 : FVec Ideal S64x448 .f32) (b1 : FVec Ideal S448 .f32)
    (n : Fin 512) (f : Fin 64) (d : Fin 7) :
    table7 (F := Ideal) z W1 b1 (ix3 n f d) = Cert.Seasonal.affine z W1 b1 n ⟨f.val * 7 + d.val, by omega⟩ := by
  unfold table7
  refine (shapeCast_apply _ _ (ix3 n f d) (ix2 n (⟨f.val * 7 + d.val, by omega⟩ : Fin 448)) ?_).trans ?_
  · rw [Shape.rowMajor_val_two, Shape.rowMajor_val_three]
    show n.val * 448 + (f.val * 7 + d.val) = (n.val * 64 + f.val) * 7 + d.val
    omega
  · rw [addf_apply,
      broadcastInDim_apply _ _ _ _ (ix2 (⟨0, Nat.one_pos⟩ : Fin 1) (⟨f.val * 7 + d.val, by omega⟩ : Fin 448))
        (fun a => match a with | ⟨0, _⟩ => rfl | ⟨1, _⟩ => rfl),
      broadcastInDim_apply _ _ _ _ (ix1 (⟨f.val * 7 + d.val, by omega⟩ : Fin 448))
        (fun a => match a with | ⟨0, _⟩ => rfl)]
    unfold Cert.Seasonal.affine
    exact congrArg (· + _) (Cert.HostMatmul.dotGeneral_plain_apply none z W1 n ⟨f.val * 7 + d.val, by omega⟩)

/-- Two arrays stacked on a new unit last axis and summed over it from 0: their entrywise sum. -/
theorem summed_apply (a b : FVec Ideal S512x64x1024 .f32) (n : Fin 512) (f : Fin 64) (t : Fin 1024) :
    summed (F := Ideal) a b (ix3 n f t) = a (ix3 n f t) + b (ix3 n f t) := by
  unfold summed
  rw [hostReduceAdd_apply]
  rw [Ideal.hostReduceAdd_single reducesTo_S512x64x1024x2_S512x64x1024_d3
    (by decide : S512x64x1024x2.Reduces [3] S512x64x1024)]
  show Ideal.ofBits .f32 0x00000000#32 + ∑ k : Fin 2, _ = _
  rw [Ideal.ofBits_zero_f32, zero_add, Fin.sum_univ_two]
  have l0 : (by decide : S512x64x1024x2.Reduces [3] S512x64x1024).lift (ix3 n f t) (0 : Fin 2)
      = ix4 n f t (0 : Fin 2) := by
    funext c; refine Fin.ext ?_
    match c with
    | ⟨0, _⟩ => rfl
    | ⟨1, _⟩ => rfl
    | ⟨2, _⟩ => rfl
    | ⟨3, _⟩ => rfl
  have l1 : (by decide : S512x64x1024x2.Reduces [3] S512x64x1024).lift (ix3 n f t) (1 : Fin 2)
      = ix4 n f t (1 : Fin 2) := by
    funext c; refine Fin.ext ?_
    match c with
    | ⟨0, _⟩ => rfl
    | ⟨1, _⟩ => rfl
    | ⟨2, _⟩ => rfl
    | ⟨3, _⟩ => rfl
  have e0 : ∀ A B : FVec Ideal S512x64x1024x1 .f32,
      concatenate S512x64x1024x2 3 [⟨S512x64x1024x1, A⟩, ⟨S512x64x1024x1, B⟩]
        concatenates_S512x64x1024x1_S512x64x1024x1_S512x64x1024x2_d3 (ix4 n f t (0 : Fin 2))
      = A (ix4 n f t (0 : Fin 1)) := fun A B =>
    concatenate_pair_apply_left (3 : Fin 4) A B _ (ix4 n f t (0 : Fin 2)) rfl (ix4 n f t (0 : Fin 1))
      (fun c => match c with | ⟨0, _⟩ => rfl | ⟨1, _⟩ => rfl | ⟨2, _⟩ => rfl | ⟨3, _⟩ => rfl)
  have e1 : ∀ A B : FVec Ideal S512x64x1024x1 .f32,
      concatenate S512x64x1024x2 3 [⟨S512x64x1024x1, A⟩, ⟨S512x64x1024x1, B⟩]
        concatenates_S512x64x1024x1_S512x64x1024x1_S512x64x1024x2_d3 (ix4 n f t (1 : Fin 2))
      = B (ix4 n f t (0 : Fin 1)) := fun A B =>
    concatenate_pair_apply_right (3 : Fin 4) A B _ (ix4 n f t (1 : Fin 2)) rfl rfl (ix4 n f t (0 : Fin 1))
      (fun c hc => match c, hc with
        | ⟨0, _⟩, _ => rfl
        | ⟨1, _⟩, _ => rfl
        | ⟨2, _⟩, _ => rfl
        | ⟨3, _⟩, hc => absurd rfl hc) rfl
  rw [l0, l1, e0, e1,
    broadcastInDim_apply _ _ a _ (ix3 n f t)
      (fun c => match c with | ⟨0, _⟩ => rfl | ⟨1, _⟩ => rfl | ⟨2, _⟩ => rfl),
    broadcastInDim_apply _ _ b _ (ix3 n f t)
      (fun c => match c with | ⟨0, _⟩ => rfl | ⟨1, _⟩ => rfl | ⟨2, _⟩ => rfl)]

/-- THE REFERENCE IS THE LAYER: at `(n, t, f)` the hourly table at `(n, f, t % 24)` plus the weekly table at
    `(n, f, (t / 24) % 7)`. -/
theorem out_eq_G (z : FVec Ideal S512x64 .f32) (W0 : FVec Ideal S64x1536 .f32) (b0 : FVec Ideal S1536 .f32)
    (W1 : FVec Ideal S64x448 .f32) (b1 : FVec Ideal S448 .f32) :
    out (F := Ideal) z W0 b0 W1 b1 = Cert.Seasonal.G z W0 b0 W1 b1 := by
  funext i
  obtain ⟨n, t, f, rfl⟩ : ∃ (n : Fin 512) (t : Fin 1024) (f : Fin 64), i = ix3 n t f := ⟨i 0, i 1, i 2, eq_ix3 i⟩
  unfold out
  rw [transpose_ix3_021_apply, summed_apply, take24_apply, take7_apply, table24_apply, table7_apply, Cert.Seasonal.G_ix3]
  rfl

end Cert.Seasonal.Ref

end
-- ==== Proof.lean ====
/-
  The seasonal layer: a pipelined kernel against its jnp reference, equal at the extended reals.

  Both programs compute, from a latent batch `z : [512, 64]`, two affine season tables `z · W0 + b0` (24 hourly
  values per feature) and `z · W1 + b1` (7 daily values per feature), and lay out
  `out[n, t, f] = p0[n, f · 24 + t % 24] + p1[n, f · 7 + (t / 24) % 7]` over 1024 time steps (Proof/Spec.lean: `G`).

  The kernel does it sixteen samples at a grid point: two matrix products into zero accumulators, the bias rows
  broadcast, each table re-laid as `[16, 64, seasons]`; for each of the seven days the day's column broadcast over the
  24 hours and added to the hourly table; the seven pieces laid side by side into one 168-step week; six weeks and
  the first 16 steps of a seventh laid side by side into the 1024 steps. Step `t` of that row falls in week
  `t / 168`, day `(t % 168) / 24 = (t / 24) % 7`, hour `t % 24`. The host then exchanges the last two axes.
  (Proof/KernelPayload.lean, Proof/KernelBlocks.lean, Proof/KernelRun.lean.)

  The reference gathers each table along its last axis at a constant table of season numbers (`jnp.take`: wrap a
  negative index, clamp, NaN outside the range — none of which touches an index that is `t % 24` or `(t / 24) % 7`),
  stacks the two results, sums them from 0 and exchanges the last two axes (Proof/RefTerm.lean: the result as one term;
  Proof/RefOps.lean, Proof/RefRun.lean: the program's run ends at that term; Proof/RefTake.lean, Proof/RefValue.lean: the
  term is `G`, index by index).

  Two facts of extended-real arithmetic are used: a matrix product is the same finite sum on both sides, and
  `0 + x = x`; neither needs the inputs to be finite. The ideal pass rewrote no operation of the kernel, so the fourth
  conjunct of the claim is `True`.
-/
import proofs.«113835_g9998683865523_cont_sun_m_317_17_alg».proof.Defs
import proofs.«113835_g9998683865523_cont_sun_m_317_17_alg».proof.Proof.Gen.Kernel
import proofs.«113835_g9998683865523_cont_sun_m_317_17_alg».proof.Proof.Gen.Kernel.Frame
import proofs.«113835_g9998683865523_cont_sun_m_317_17_alg».proof.Proof.Gen.KernelIdeal
import proofs.«113835_g9998683865523_cont_sun_m_317_17_alg».proof.Proof.Gen.KernelIdeal.Frame
import proofs.«113835_g9998683865523_cont_sun_m_317_17_alg».proof.Proof.Gen.ReferenceIdeal
import proofs.«113835_g9998683865523_cont_sun_m_317_17_alg».proof.Proof.Gen.Pre_finite_inputs
import proofs.«113835_g9998683865523_cont_sun_m_317_17_alg».proof.Proof.Spec
import proofs.«113835_g9998683865523_cont_sun_m_317_17_alg».proof.Proof.KernelRun
import proofs.«113835_g9998683865523_cont_sun_m_317_17_alg».proof.Proof.RefRun
import proofs.«113835_g9998683865523_cont_sun_m_317_17_alg».proof.Proof.RefValue

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.Seasonal.Ref.run m ρ)

/-- At the extended reals the kernel's result array ends at `G` of its arguments, the reference's at `out` of its
    own, which is `G` too; the arguments agree. -/
theorem algebraic : Cert.algebraic_KernelIdeal_ReferenceIdeal := by
  intro m ρ m' ρ' _ hagree
  refine ⟨_, Cert.Seasonal.Kernel.run m ρ, ?_⟩
  refine (θ_run Cert.ReferenceIdeal.defs _ _).mono (fun _ h c => ⟨(h c).1.trans ?_, (h c).2⟩)
    (Cert.Seasonal.Ref.run m' ρ')
  rw [Cert.Seasonal.Ref.out_eq_G, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
